-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v33)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v33) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v51) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1x256x512x512 : Shape := ⟨4, ![1, 256, 512, 512]⟩
abbrev S256x32 : Shape := ⟨2, ![256, 32]⟩
abbrev S256x256 : Shape := ⟨2, ![256, 256]⟩
abbrev S_ : Shape := ⟨0, ![]⟩

class Facts : Prop where
  bcast_S_S1x256x512x512 : S_.BroadcastsInDim S1x256x512x512 (![] : Fin 0 → Fin S1x256x512x512.rank)
  reducesTo_S1x256x512x512_S_d0_1_2_3 : S1x256x512x512.ReducesTo [0, 1, 2, 3] S_
  h_S_ : 0 < S_.numel
  bcast_S_S256x32 : S_.BroadcastsInDim S256x32 (![] : Fin 0 → Fin S256x32.rank)
  reducesTo_S256x32_S_d0_1 : S256x32.ReducesTo [0, 1] S_
  bcast_S_S256x256 : S_.BroadcastsInDim S256x256 (![] : Fin 0 → Fin S256x256.rank)
  reducesTo_S256x256_S_d0_1 : S256x256.ReducesTo [0, 1] S_

variable [Facts]

def fn_part1 {F : FTy → Type} [FloatOps F] (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  main_v18

def fn {F : FTy → Type} [FloatOps F] (main_arg0 : FVec F S1x256x512x512 .f32) (main_arg1 : FVec F S256x32 .f32) (main_arg2 : FVec F S256x32 .f32) (main_arg3 : FVec F S256x256 .f32) : IVec S_ 1 :=
  let main_v0 : FVec F S1x256x512x512 .f32 := Host.absf main_arg0
  let main_cst : FVec F S_ .f32 := constant S_ .f32 0x7F800000#32
  let main_v1 : FVec F S1x256x512x512 .f32 := broadcastInDim S1x256x512x512 ![] bcast_S_S1x256x512x512 main_cst
  let main_v2 : IVec S1x256x512x512 1 := cmpf .olt main_v0 main_v1
  let main_c : IVec S_ 1 := constantI S_ 1 1#1
  let main_v3 : IVec S_ 1 := (fun x v => Host.reduce IntOp.andi x v reducesTo_S1x256x512x512_S_d0_1_2_3 h_S_) main_v2 main_c
  let main_v4 : FVec F S256x32 .f32 := Host.absf main_arg1
  let main_cst_0 : FVec F S_ .f32 := constant S_ .f32 0x7F800000#32
  let main_v5 : FVec F S256x32 .f32 := broadcastInDim S256x32 ![] bcast_S_S256x32 main_cst_0
  let main_v6 : IVec S256x32 1 := cmpf .olt main_v4 main_v5
  let main_c_1 : IVec S_ 1 := constantI S_ 1 1#1
  let main_v7 : IVec S_ 1 := (fun x v => Host.reduce IntOp.andi x v reducesTo_S256x32_S_d0_1 h_S_) main_v6 main_c_1
  let main_v8 : IVec S_ 1 := andi main_v3 main_v7
  let main_v9 : FVec F S256x32 .f32 := Host.absf main_arg2
  let main_cst_2 : FVec F S_ .f32 := constant S_ .f32 0x7F800000#32
  let main_v10 : FVec F S256x32 .f32 := broadcastInDim S256x32 ![] bcast_S_S256x32 main_cst_2
  let main_v11 : IVec S256x32 1 := cmpf .olt main_v9 main_v10
  let main_c_3 : IVec S_ 1 := constantI S_ 1 1#1
  let main_v12 : IVec S_ 1 := (fun x v => Host.reduce IntOp.andi x v reducesTo_S256x32_S_d0_1 h_S_) main_v11 main_c_3
  let main_v13 : IVec S_ 1 := andi main_v8 main_v12
  let main_v14 : FVec F S256x256 .f32 := Host.absf main_arg3
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_v13 main_v16
-- ==== Kernel.lean ====
abbrev S1x256x512x512 : Shape := ⟨4, ![1, 256, 512, 512]⟩
abbrev S256x32 : Shape := ⟨2, ![256, 32]⟩
abbrev S256x256 : Shape := ⟨2, ![256, 256]⟩
abbrev S262144x256 : Shape := ⟨2, ![262144, 256]⟩
abbrev S_ : Shape := ⟨0, ![]⟩
abbrev S32 : Shape := ⟨1, ![32]⟩
abbrev S1x32 : Shape := ⟨2, ![1, 32]⟩
abbrev S262144x32 : Shape := ⟨2, ![262144, 32]⟩
abbrev S2x1x32 : Shape := ⟨3, ![2, 1, 32]⟩
abbrev S2x256x32 : Shape := ⟨3, ![2, 256, 32]⟩
abbrev S4096x256 : Shape := ⟨2, ![4096, 256]⟩
abbrev S4096x32 : Shape := ⟨2, ![4096, 32]⟩
abbrev S1x1x32 : Shape := ⟨3, ![1, 1, 32]⟩
abbrev S1x256x32 : Shape := ⟨3, ![1, 256, 32]⟩
abbrev S4096 : Shape := ⟨1, ![4096]⟩
abbrev S4096x1 : Shape := ⟨2, ![4096, 1]⟩
abbrev S32x256 : Shape := ⟨2, ![32, 256]⟩
abbrev S32x32 : Shape := ⟨2, ![32, 32]⟩
abbrev S8192x32 : Shape := ⟨2, ![8192, 32]⟩
abbrev S8192x256 : Shape := ⟨2, ![8192, 256]⟩

abbrev nBuf : Space → Nat
  | .hbm => 47
  | .vmem => 16
  | .smem => 0
  | _ => 0

abbrev bufTy : (tb : Table) → Fin (tcTables nBuf tb) → BufTy
  | .hbm, ⟨0, _⟩ => ⟨S1x256x512x512, .f32⟩
  | .hbm, ⟨1, _⟩ => ⟨S256x32, .f32⟩
  | .hbm, ⟨2, _⟩ => ⟨S256x32, .f32⟩
  | .hbm, ⟨3, _⟩ => ⟨S256x256, .f32⟩
  | .hbm, ⟨4, _⟩ => ⟨S262144x256, .f32⟩
  | .hbm, ⟨5, _⟩ => ⟨S_, .f32⟩
  | .hbm, ⟨6, _⟩ => ⟨S256x32, .f32⟩
  | .hbm, ⟨7, _⟩ => ⟨S256x32, .f32⟩
  | .hbm, ⟨8, _⟩ => ⟨S256x32, .f32⟩
  | .hbm, ⟨9, _⟩ => ⟨S256x32, .f32⟩
  | .hbm, ⟨10, _⟩ => ⟨S256x32, .f32⟩
  | .hbm, ⟨11, _⟩ => ⟨S256x32, .f32⟩
  | .hbm, ⟨12, _⟩ => ⟨S_, .f32⟩
  | .hbm, ⟨13, _⟩ => ⟨S32, .f32⟩
  | .hbm, ⟨14, _⟩ => ⟨S1x32, .f32⟩
  | .hbm, ⟨15, _⟩ => ⟨S262144x32, .bf16⟩
  | .hbm, ⟨16, _⟩ => ⟨S2x1x32, .f32⟩
  | .hbm, ⟨17, _⟩ => ⟨S2x256x32, .f32⟩
  | .hbm, ⟨18, _⟩ => ⟨S_, .f32⟩
  | .hbm, ⟨19, _⟩ => ⟨S1x32, .f32⟩
  | .hbm, ⟨20, _⟩ => ⟨S32, .f32⟩
  | .hbm, ⟨21, _⟩ => ⟨S_, .f32⟩
  | .hbm, ⟨22, _⟩ => ⟨S256x32, .f32⟩
  | .hbm, ⟨23, _⟩ => ⟨S1x32, .f32⟩
  | .hbm, ⟨24, _⟩ => ⟨S256x32, .f32⟩
  | .hbm, ⟨25, _⟩ => ⟨S256x32, .f32⟩
  | .hbm, ⟨26, _⟩ => ⟨S256x32, .f32⟩
  | .hbm, ⟨27, _⟩ => ⟨S256x32, .f32⟩
  | .hbm, ⟨28, _⟩ => ⟨S1x32, .f32⟩
  | .hbm, ⟨29, _⟩ => ⟨S256x32, .f32⟩
  | .hbm, ⟨30, _⟩ => ⟨S256x32, .f32⟩
  | .hbm, ⟨31, _⟩ => ⟨S256x32, .f32⟩
  | .hbm, ⟨32, _⟩ => ⟨S_, .f32⟩
  | .hbm, ⟨33, _⟩ => ⟨S32, .f32⟩
  | .hbm, ⟨34, _⟩ => ⟨S1x32, .f32⟩
  | .hbm, ⟨35, _⟩ => ⟨S256x32, .f32⟩
  | .hbm, ⟨36, _⟩ => ⟨S256x32, .f32⟩
  | .hbm, ⟨37, _⟩ => ⟨S32x256, .f32⟩
  | .hbm, ⟨38, _⟩ => ⟨S32x32, .f32⟩
  | .hbm, ⟨39, _⟩ => ⟨S32x256, .f32⟩
  | .hbm, ⟨40, _⟩ => ⟨S32x256, .f32⟩
  | .hbm, ⟨41, _⟩ => ⟨S32x256, .f32⟩
  | .hbm, ⟨42, _⟩ => ⟨S_, .f32⟩
  | .hbm, ⟨43, _⟩ => ⟨S32x256, .f32⟩
  | .hbm, ⟨44, _⟩ => ⟨S32x256, .f32⟩
  | .hbm, ⟨45, _⟩ => ⟨S262144x256, .f32⟩
  | .hbm, ⟨46, _⟩ => ⟨S1x256x512x512, .f32⟩
  | .local _ .vmem, ⟨0, _⟩ => ⟨S4096x256, .f32⟩
  | .local _ .vmem, ⟨1, _⟩ => ⟨S4096x256, .f32⟩
  | .local _ .vmem, ⟨2, _⟩ => ⟨S256x32, .f32⟩
  | .local _ .vmem, ⟨3, _⟩ => ⟨S256x32, .f32⟩
  | .local _ .vmem, ⟨4, _⟩ => ⟨S1x32, .f32⟩
  | .local _ .vmem, ⟨5, _⟩ => ⟨S4096x32, .bf16⟩
  | .local _ .vmem, ⟨6, _⟩ => ⟨S4096x32, .bf16⟩
  | .local _ .vmem, ⟨7, _⟩ => ⟨S1x1x32, .f32⟩
  | .local _ .vmem, ⟨8, _⟩ => ⟨S1x1x32, .f32⟩
  | .local _ .vmem, ⟨9, _⟩ => ⟨S1x256x32, .f32⟩
  | .local _ .vmem, ⟨10, _⟩ => ⟨S1x256x32, .f32⟩
  | .local _ .vmem, ⟨11, _⟩ => ⟨S8192x32, .bf16⟩
  | .local _ .vmem, ⟨12, _⟩ => ⟨S8192x32, .bf16⟩
  | .local _ .vmem, ⟨13, _⟩ => ⟨S32x256, .f32⟩
  | .local _ .vmem, ⟨14, _⟩ => ⟨S8192x256, .f32⟩
  | .local _ .vmem, ⟨15, _⟩ => ⟨S8192x256, .f32⟩
  | _, _ => ⟨S1x256x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_v9_0 : Ref sig .tc := ⟨.hbm, 15, rfl⟩
abbrev main_v9_1 : Ref sig .tc := ⟨.hbm, 16, rfl⟩
abbrev main_v9_2 : Ref sig .tc := ⟨.hbm, 17, rfl⟩
abbrev main_cst_1 : Ref sig .tc := ⟨.hbm, 18, rfl⟩
abbrev main_v10 : Ref sig .tc := ⟨.hbm, 19, rfl⟩
abbrev main_v11 : Ref sig .tc := ⟨.hbm, 20, rfl⟩
abbrev main_cst_2 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_3 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_call0_cst : Ref sig .tc := ⟨.hbm, 42, rfl⟩
abbrev main_call0_v0 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg2_0 : Ref sig .tc := ⟨.vmem, 14, rfl⟩
abbrev cc1_stg2_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem2_0 : DmaSem sig := 14
abbrev cc1_sem2_1 : DmaSem sig := 15

abbrev nD : Nat := 1
abbrev τ : Topo := Topo.v7x

variable {F : FTy → Type} [FloatOps F]

abbrev grid0 : Pipeline.Grid := ⟨2, ![2, 32], ![false, false]⟩

def cc0_transform_0 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4096x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S256x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S256x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S4096x32 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1x32 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x256x32 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev grid1 : Pipeline.Grid := ⟨1, ![32], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S8192x32 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S32x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S8192x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  shapeCasts_S1x256x512x512_S262144x256 : S1x256x512x512.ShapeCasts S262144x256
  bcast_S_S256x32 : S_.BroadcastsInDim S256x32 (![] : Fin 0 → Fin S256x32.rank)
  reducesTo_S256x32_S32_d0 : S256x32.ReducesTo [0] S32
  h_S_ : 0 < S_.numel
  shapeCasts_S32_S1x32 : S32.ShapeCasts S1x32
  inb_S1x1x32_S1x1x32_0_0_0 : ∀ a, (![0, 0, 0] : Fin 3 → Nat) a + S1x1x32.size a ≤ S1x1x32.size a
  h_S1x1x32 : 0 < S1x1x32.numel
  shapeCasts_S1x1x32_S1x32 : S1x1x32.ShapeCasts S1x32
  shapeCasts_S1x32_S1x1x32 : S1x32.ShapeCasts S1x1x32
  inb_S1x256x32_S1x256x32_0_0_0 : ∀ a, (![0, 0, 0] : Fin 3 → Nat) a + S1x256x32.size a ≤ S1x256x32.size a
  h_S1x256x32 : 0 < S1x256x32.numel
  shapeCasts_S1x256x32_S256x32 : S1x256x32.ShapeCasts S256x32
  shapeCasts_S256x32_S1x256x32 : S256x32.ShapeCasts S1x256x32
  inb_S4096x256_S4096x256_0_0 : ∀ a, (![0, 0] : Fin 2 → Nat) a + S4096x256.size a ≤ S4096x256.size a
  h_S4096x256 : 0 < S4096x256.numel
  shapeCasts_S4096x256_S4096x256 : S4096x256.ShapeCasts S4096x256
  inb_S256x32_S256x32_0_0 : ∀ a, (![0, 0] : Fin 2 → Nat) a + S256x32.size a ≤ S256x32.size a
  h_S256x32 : 0 < S256x32.numel
  shapeCasts_S256x32_S256x32 : S256x32.ShapeCasts S256x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S4096x32 : S1x32.Broadcasts S4096x32
  reduces_S4096x32_S4096 : S4096x32.Reduces [1] S4096
  shapeCasts_S4096_S4096x1 : S4096.ShapeCasts S4096x1
  broadcasts_S4096x1_S4096x32 : S4096x1.Broadcasts S4096x32
  bitsLt_bf16_f32 : FTy.bits .bf16 < FTy.bits .f32
  inb_S4096x32_S4096x32_0_0 : ∀ a, (![0, 0] : Fin 2 → Nat) a + S4096x32.size a ≤ S4096x32.size a
  h_S4096x32 : 0 < S4096x32.numel
  packedbf16_S4096x32_S4096x32_0_0 : (Rect.unit (s := S4096x32) ![0, 0] S4096x32.size inb_S4096x32_S4096x32_0_0).PackedRows (EltTy.packing .bf16)
  reduces_S4096x32_S32 : S4096x32.Reduces [0] S32
  reducesTo_S2x1x32_S1x32_d0 : S2x1x32.ReducesTo [0] S1x32
  shapeCasts_S1x32_S32 : S1x32.ShapeCasts S32
  reducesTo_S2x256x32_S256x32_d0 : S2x256x32.ReducesTo [0] S256x32
  bcast_S32_S1x32_1 : S32.BroadcastsInDim S1x32 (![1] : Fin 1 → Fin S1x32.rank)
  bcast_S1x32_S256x32_0_1 : S1x32.BroadcastsInDim S256x32 (![0, 1] : Fin 2 → Fin S256x32.rank)
  transposes_S256x32_S32x256_1_0 : S256x32.Transposes [1, 0] S32x256
  bcast_S_S32x256 : S_.BroadcastsInDim S32x256 (![] : Fin 0 → Fin S32x256.rank)
  inb_S8192x32_S8192x32_0_0 : ∀ a, (![0, 0] : Fin 2 → Nat) a + S8192x32.size a ≤ S8192x32.size a
  h_S8192x32 : 0 < S8192x32.numel
  shapeCasts_S8192x32_S8192x32 : S8192x32.ShapeCasts S8192x32
  inb_S32x256_S32x256_0_0 : ∀ a, (![0, 0] : Fin 2 → Nat) a + S32x256.size a ≤ S32x256.size a
  h_S32x256 : 0 < S32x256.numel
  shapeCasts_S32x256_S32x256 : S32x256.ShapeCasts S32x256
  inb_S8192x256_S8192x256_0_0 : ∀ a, (![0, 0] : Fin 2 → Nat) a + S8192x256.size a ≤ S8192x256.size a
  h_S8192x256 : 0 < S8192x256.numel
  shapeCasts_S262144x256_S1x256x512x512 : S262144x256.ShapeCasts S1x256x512x512
  dot_S4096x256_S256x32_S4096x32_1_0_0_1_n_n_wf : DotDims.WF S4096x256 S256x32 S4096x32 [1] [0] [0] [1] [] []
  dot_S4096x256_S4096x32_S256x32_0_0_1_1_n_n_wf : DotDims.WF S4096x256 S4096x32 S256x32 [0] [0] [1] [1] [] []
  dot_S32x256_S256x32_S32x32_1_0_0_1_n_n_wf : DotDims.WF S32x256 S256x32 S32x32 [1] [0] [0] [1] [] []
  dot_S32x256_S256x256_S32x256_1_0_0_1_n_n_wf : DotDims.WF S32x256 S256x256 S32x256 [1] [0] [0] [1] [] []
  dot_S32x32_S32x256_S32x256_1_0_0_1_n_n_wf : DotDims.WF S32x32 S32x256 S32x256 [1] [0] [0] [1] [] []
  dot_S8192x32_S32x256_S8192x256_1_0_0_1_n_n_wf : DotDims.WF S8192x32 S32x256 S8192x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x256.size a ≤ S262144x256.size a
  hwx0_0 : ∀ i : grid0.Coords, EltTy.bits .f32 = 32 ∨ (Rect.block (s := S262144x256) S4096x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x32.size a ≤ S256x32.size a
  hwx0_1 : ∀ i : grid0.Coords, EltTy.bits .f32 = 32 ∨ (Rect.block (s := S256x32) S256x32.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x32.size a ≤ S256x32.size a
  hwx0_2 : ∀ i : grid0.Coords, EltTy.bits .f32 = 32 ∨ (Rect.block (s := S256x32) S256x32.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x32.size a ≤ S1x32.size a
  hwx0_3 : ∀ i : grid0.Coords, EltTy.bits .f32 = 32 ∨ (Rect.block (s := S1x32) S1x32.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S4096x32.size a ≤ S262144x32.size a
  hwx0_4 : ∀ i : grid0.Coords, EltTy.bits .bf16 = 32 ∨ (Rect.block (s := S262144x32) S4096x32.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1x32.size a ≤ S2x1x32.size a
  hwx0_5 : ∀ i : grid0.Coords, EltTy.bits .f32 = 32 ∨ (Rect.block (s := S2x1x32) S1x1x32.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x256x32.size a ≤ S2x256x32.size a
  hwx0_6 : ∀ i : grid0.Coords, EltTy.bits .f32 = 32 ∨ (Rect.block (s := S2x256x32) S1x256x32.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8192x32.size a ≤ S262144x32.size a
  hwx1_0 : ∀ i : grid1.Coords, EltTy.bits .bf16 = 32 ∨ (Rect.block (s := S262144x32) S8192x32.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S32x256.size a ≤ S32x256.size a
  hwx1_1 : ∀ i : grid1.Coords, EltTy.bits .f32 = 32 ∨ (Rect.block (s := S32x256) S32x256.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S8192x256.size a ≤ S262144x256.size a
  hwx1_2 : ∀ i : grid1.Coords, EltTy.bits .f32 = 32 ∨ (Rect.block (s := S262144x256) S8192x256.size (cc1_transform_2 i) (hinb1_2 i)).WholeWords (EltTy.packing .f32)

variable [Facts₀]

def dot_S4096x256_S256x32_S4096x32_1_0_0_1_n_n : DotDims S4096x256 S256x32 S4096x32 where
  lhsContracting := [1]
  rhsContracting := [0]
  lhsNonContracting := [0]
  rhsNonContracting := [1]
  lhsBatch := []
  rhsBatch := []
  wf := dot_S4096x256_S256x32_S4096x32_1_0_0_1_n_n_wf
def dot_S4096x256_S4096x32_S256x32_0_0_1_1_n_n : DotDims S4096x256 S4096x32 S256x32 where
  lhsContracting := [0]
  rhsContracting := [0]
  lhsNonContracting := [1]
  rhsNonContracting := [1]
  lhsBatch := []
  rhsBatch := []
  wf := dot_S4096x256_S4096x32_S256x32_0_0_1_1_n_n_wf
def dot_S32x256_S256x32_S32x32_1_0_0_1_n_n : DotDims S32x256 S256x32 S32x32 where
  lhsContracting := [1]
  rhsContracting := [0]
  lhsNonContracting := [0]
  rhsNonContracting := [1]
  lhsBatch := []
  rhsBatch := []
  wf := dot_S32x256_S256x32_S32x32_1_0_0_1_n_n_wf
def dot_S32x256_S256x256_S32x256_1_0_0_1_n_n : DotDims S32x256 S256x256 S32x256 where
  lhsContracting := [1]
  rhsContracting := [0]
  lhsNonContracting := [0]
  rhsNonContracting := [1]
  lhsBatch := []
  rhsBatch := []
  wf := dot_S32x256_S256x256_S32x256_1_0_0_1_n_n_wf
def dot_S32x32_S32x256_S32x256_1_0_0_1_n_n : DotDims S32x32 S32x256 S32x256 where
  lhsContracting := [1]
  rhsContracting := [0]
  lhsNonContracting := [0]
  rhsNonContracting := [1]
  lhsBatch := []
  rhsBatch := []
  wf := dot_S32x32_S32x256_S32x256_1_0_0_1_n_n_wf
def dot_S8192x32_S32x256_S8192x256_1_0_0_1_n_n : DotDims S8192x32 S32x256 S8192x256 where
  lhsContracting := [1]
  rhsContracting := [0]
  lhsNonContracting := [0]
  rhsNonContracting := [1]
  lhsBatch := []
  rhsBatch := []
  wf := dot_S8192x32_S32x256_S8192x256_1_0_0_1_n_n_wf

abbrev win0_0 : Pipeline.Window sig grid0 :=
  Pipeline.Window.ofSpec (Memref.whole main_v0) S4096x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S256x32.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S256x32.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v8) S1x32.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v9_0) S4096x32.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v9_1) S1x1x32.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v9_2) S1x256x32.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v9_0) S8192x32.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v31) S32x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v32) S8192x256.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S1x256x512x512 : Shape := ⟨4, ![1, 256, 512, 512]⟩
abbrev S256x32 : Shape := ⟨2, ![256, 32]⟩
abbrev S256x256 : Shape := ⟨2, ![256, 256]⟩
abbrev S262144x256 : Shape := ⟨2, ![262144, 256]⟩
abbrev S_ : Shape := ⟨0, ![]⟩
abbrev S262144x32 : Shape := ⟨2, ![262144, 32]⟩
abbrev S32 : Shape := ⟨1, ![32]⟩
abbrev S1x32 : Shape := ⟨2, ![1, 32]⟩
abbrev S262144 : Shape := ⟨1, ![262144]⟩
abbrev S262144x1 : Shape := ⟨2, ![262144, 1]⟩
abbrev S256x262144 : Shape := ⟨2, ![256, 262144]⟩
abbrev S32x256 : Shape := ⟨2, ![32, 256]⟩
abbrev S32x32 : Shape := ⟨2, ![32, 32]⟩

abbrev nBuf : Space → Nat
  | .hbm => 66
  | .vmem => 0
  | .smem => 0
  | _ => 0

abbrev bufTy : (tb : Table) → Fin (tcTables nBuf tb) → BufTy
  | .hbm, ⟨0, _⟩ => ⟨S1x256x512x512, .f32⟩
  | .hbm, ⟨1, _⟩ => ⟨S256x32, .f32⟩
  | .hbm, ⟨2, _⟩ => ⟨S256x32, .f32⟩
  | .hbm, ⟨3, _⟩ => ⟨S256x256, .f32⟩
  | .hbm, ⟨4, _⟩ => ⟨S262144x256, .f32⟩
  | .hbm, ⟨5, _⟩ => ⟨S_, .f32⟩
  | .hbm, ⟨6, _⟩ => ⟨S256x32, .f32⟩
  | .hbm, ⟨7, _⟩ => ⟨S256x32, .f32⟩
  | .hbm, ⟨8, _⟩ => ⟨S256x32, .f32⟩
  | .hbm, ⟨9, _⟩ => ⟨S262144x256, .f32⟩
  | .hbm, ⟨10, _⟩ => ⟨S262144x32, .f32⟩
  | .hbm, ⟨11, _⟩ => ⟨S256x32, .f32⟩
  | .hbm, ⟨12, _⟩ => ⟨S262144x32, .f32⟩
  | .hbm, ⟨13, _⟩ => ⟨S_, .f32⟩
  | .hbm, ⟨14, _⟩ => ⟨S262144x32, .f32⟩
  | .hbm, ⟨15, _⟩ => ⟨S262144x32, .f32⟩
  | .hbm, ⟨16, _⟩ => ⟨S262144x32, .f32⟩
  | .hbm, ⟨17, _⟩ => ⟨S256x32, .f32⟩
  | .hbm, ⟨18, _⟩ => ⟨S256x32, .f32⟩
  | .hbm, ⟨19, _⟩ => ⟨S_, .f32⟩
  | .hbm, ⟨20, _⟩ => ⟨S32, .f32⟩
  | .hbm, ⟨21, _⟩ => ⟨S1x32, .f32⟩
  | .hbm, ⟨22, _⟩ => ⟨S262144x32, .f32⟩
  | .hbm, ⟨23, _⟩ => ⟨S262144x32, .f32⟩
  | .hbm, ⟨24, _⟩ => ⟨S_, .f32⟩
  | .hbm, ⟨25, _⟩ => ⟨S262144, .f32⟩
  | .hbm, ⟨26, _⟩ => ⟨S262144x1, .f32⟩
  | .hbm, ⟨27, _⟩ => ⟨S262144x32, .f32⟩
  | .hbm, ⟨28, _⟩ => ⟨S262144x32, .f32⟩
  | .hbm, ⟨29, _⟩ => ⟨S_, .f32⟩
  | .hbm, ⟨30, _⟩ => ⟨S262144x32, .f32⟩
  | .hbm, ⟨31, _⟩ => ⟨S262144x32, .f32⟩
  | .hbm, ⟨32, _⟩ => ⟨S262144x32, .f32⟩
  | .hbm, ⟨33, _⟩ => ⟨S_, .f32⟩
  | .hbm, ⟨34, _⟩ => ⟨S262144, .f32⟩
  | .hbm, ⟨35, _⟩ => ⟨S262144x1, .f32⟩
  | .hbm, ⟨36, _⟩ => ⟨S262144x32, .f32⟩
  | .hbm, ⟨37, _⟩ => ⟨S262144x32, .f32⟩
  | .hbm, ⟨38, _⟩ => ⟨S_, .f32⟩
  | .hbm, ⟨39, _⟩ => ⟨S32, .f32⟩
  | .hbm, ⟨40, _⟩ => ⟨S256x262144, .f32⟩
  | .hbm, ⟨41, _⟩ => ⟨S256x32, .f32⟩
  | .hbm, ⟨42, _⟩ => ⟨S1x32, .f32⟩
  | .hbm, ⟨43, _⟩ => ⟨S256x32, .f32⟩
  | .hbm, ⟨44, _⟩ => ⟨S256x32, .f32⟩
  | .hbm, ⟨45, _⟩ => ⟨S256x32, .f32⟩
  | .hbm, ⟨46, _⟩ => ⟨S256x32, .f32⟩
  | .hbm, ⟨47, _⟩ => ⟨S1x32, .f32⟩
  | .hbm, ⟨48, _⟩ => ⟨S256x32, .f32⟩
  | .hbm, ⟨49, _⟩ => ⟨S256x32, .f32⟩
  | .hbm, ⟨50, _⟩ => ⟨S256x32, .f32⟩
  | .hbm, ⟨51, _⟩ => ⟨S_, .f32⟩
  | .hbm, ⟨52, _⟩ => ⟨S32, .f32⟩
  | .hbm, ⟨53, _⟩ => ⟨S1x32, .f32⟩
  | .hbm, ⟨54, _⟩ => ⟨S256x32, .f32⟩
  | .hbm, ⟨55, _⟩ => ⟨S256x32, .f32⟩
  | .hbm, ⟨56, _⟩ => ⟨S32x256, .f32⟩
  | .hbm, ⟨57, _⟩ => ⟨S32x32, .f32⟩
  | .hbm, ⟨58, _⟩ => ⟨S32x256, .f32⟩
  | .hbm, ⟨59, _⟩ => ⟨S32x256, .f32⟩
  | .hbm, ⟨60, _⟩ => ⟨S32x256, .f32⟩
  | .hbm, ⟨61, _⟩ => ⟨S_, .f32⟩
  | .hbm, ⟨62, _⟩ => ⟨S32x256, .f32⟩
  | .hbm, ⟨63, _⟩ => ⟨S32x256, .f32⟩
  | .hbm, ⟨64, _⟩ => ⟨S262144x256, .f32⟩
  | .hbm, ⟨65, _⟩ => ⟨S1x256x512x512, .f32⟩
  | _, _ => ⟨S1x256x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_1 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_2 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_3 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_4 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst_5 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_cst_6 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_call0_cst : Ref sig .tc := ⟨.hbm, 61, rfl⟩
abbrev main_call0_v0 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩

abbrev nD : Nat := 1
abbrev τ : Topo := Topo.v7x

variable {F : FTy → Type} [FloatOps F]

class Facts₀ : Prop where
  shapeCasts_S1x256x512x512_S262144x256 : S1x256x512x512.ShapeCasts S262144x256
  bcast_S_S256x32 : S_.BroadcastsInDim S256x32 (![] : Fin 0 → Fin S256x32.rank)
  bcast_S_S262144x32 : S_.BroadcastsInDim S262144x32 (![] : Fin 0 → Fin S262144x32.rank)
  reducesTo_S256x32_S32_d0 : S256x32.ReducesTo [0] S32
  h_S_ : 0 < S_.numel
  bcast_S32_S1x32_1 : S32.BroadcastsInDim S1x32 (![1] : Fin 1 → Fin S1x32.rank)
  bcast_S1x32_S262144x32_0_1 : S1x32.BroadcastsInDim S262144x32 (![0, 1] : Fin 2 → Fin S262144x32.rank)
  reducesTo_S262144x32_S262144_d1 : S262144x32.ReducesTo [1] S262144
  bcast_S262144_S262144x1_0 : S262144.BroadcastsInDim S262144x1 (![0] : Fin 1 → Fin S262144x1.rank)
  bcast_S262144x1_S262144x32_0_1 : S262144x1.BroadcastsInDim S262144x32 (![0, 1] : Fin 2 → Fin S262144x32.rank)
  reducesTo_S262144x32_S32_d0 : S262144x32.ReducesTo [0] S32
  transposes_S262144x256_S256x262144_1_0 : S262144x256.Transposes [1, 0] S256x262144
  bcast_S1x32_S256x32_0_1 : S1x32.BroadcastsInDim S256x32 (![0, 1] : Fin 2 → Fin S256x32.rank)
  transposes_S256x32_S32x256_1_0 : S256x32.Transposes [1, 0] S32x256
  bcast_S_S32x256 : S_.BroadcastsInDim S32x256 (![] : Fin 0 → Fin S32x256.rank)
  shapeCasts_S262144x256_S1x256x512x512 : S262144x256.ShapeCasts S1x256x512x512
  dot_S262144x256_S256x32_S262144x32_1_0_0_1_n_n_wf : DotDims.WF S262144x256 S256x32 S262144x32 [1] [0] [0] [1] [] []
  dot_S256x262144_S262144x32_S256x32_1_0_0_1_n_n_wf : DotDims.WF S256x262144 S262144x32 S256x32 [1] [0] [0] [1] [] []
  dot_S32x256_S256x32_S32x32_1_0_0_1_n_n_wf : DotDims.WF S32x256 S256x32 S32x32 [1] [0] [0] [1] [] []
  dot_S32x256_S256x256_S32x256_1_0_0_1_n_n_wf : DotDims.WF S32x256 S256x256 S32x256 [1] [0] [0] [1] [] []
  dot_S32x32_S32x256_S32x256_1_0_0_1_n_n_wf : DotDims.WF S32x32 S32x256 S32x256 [1] [0] [0] [1] [] []
  dot_S262144x32_S32x256_S262144x256_1_0_0_1_n_n_wf : DotDims.WF S262144x32 S32x256 S262144x256 [1] [0] [0] [1] [] []

variable [Facts₀]

def dot_S262144x256_S256x32_S262144x32_1_0_0_1_n_n : DotDims S262144x256 S256x32 S262144x32 where
  lhsContracting := [1]
  rhsContracting := [0]
  lhsNonContracting := [0]
  rhsNonContracting := [1]
  lhsBatch := []
  rhsBatch := []
  wf := dot_S262144x256_S256x32_S262144x32_1_0_0_1_n_n_wf
def dot_S256x262144_S262144x32_S256x32_1_0_0_1_n_n : DotDims S256x262144 S262144x32 S256x32 where
  lhsContracting := [1]
  rhsContracting := [0]
  lhsNonContracting := [0]
  rhsNonContracting := [1]
  lhsBatch := []
  rhsBatch := []
  wf := dot_S256x262144_S262144x32_S256x32_1_0_0_1_n_n_wf
def dot_S32x256_S256x32_S32x32_1_0_0_1_n_n : DotDims S32x256 S256x32 S32x32 where
  lhsContracting := [1]
  rhsContracting := [0]
  lhsNonContracting := [0]
  rhsNonContracting := [1]
  lhsBatch := []
  rhsBatch := []
  wf := dot_S32x256_S256x32_S32x32_1_0_0_1_n_n_wf
def dot_S32x256_S256x256_S32x256_1_0_0_1_n_n : DotDims S32x256 S256x256 S32x256 where
  lhsContracting := [1]
  rhsContracting := [0]
  lhsNonContracting := [0]
  rhsNonContracting := [1]
  lhsBatch := []
  rhsBatch := []
  wf := dot_S32x256_S256x256_S32x256_1_0_0_1_n_n_wf
def dot_S32x32_S32x256_S32x256_1_0_0_1_n_n : DotDims S32x32 S32x256 S32x256 where
  lhsContracting := [1]
  rhsContracting := [0]
  lhsNonContracting := [0]
  rhsNonContracting := [1]
  lhsBatch := []
  rhsBatch := []
  wf := dot_S32x32_S32x256_S32x256_1_0_0_1_n_n_wf
def dot_S262144x32_S32x256_S262144x256_1_0_0_1_n_n : DotDims S262144x32 S32x256 S262144x256 where
  lhsContracting := [1]
  rhsContracting := [0]
  lhsNonContracting := [0]
  rhsNonContracting := [1]
  lhsBatch := []
  rhsBatch := []
  wf := dot_S262144x32_S32x256_S262144x256_1_0_0_1_n_n_wf

class Facts : Prop extends Facts₀ where

variable [Facts]
-- ==== Proof.KRun.lean ====
/-
  The idealized kernel's run with its result named.

  Every weakly fair execution of the program terminates, nothing faulting, with the result array holding what the
  fold of the program's segments — host operations, the first pipelined region, host operations, the second region,
  the final reshape — leaves in it (`Gen.W6`), and the arguments as launched.
-/
import proofs.«117550_j41832981463347_2_alg».proof.Proof.Gen.KernelIdeal.Frame

set_option maxRecDepth 16384

noncomputable section

namespace Cert.KernelIdeal.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The launch over the program's segments, the last thread state read against the final state: the result array and
    each argument at the last boundary's contents. -/
theorem run : θ_run defs (onTc (τ := τ) (main (F := F))) ⟨m, fun _ => 0, ρ⟩ (fun r => ∀ c : Dev nD,
      r.2.mem ((c.tc : Thread nD τ).loc main_v33) = W6 m ρ c (Proc.devRef .tc main_v33)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v33 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c)⟩)

end Cert.KernelIdeal.KRun

end
-- ==== Proof.HostK.lean ====
/-
  The host stretches of the idealized kernel program, as values.

  Between its two pipelined regions the program runs plain tensor operations. Each buffer such a stretch writes holds
  a closed term of the operations' functions applied to what the stretch read: the launch arguments, or what a region
  left in its arrays. This file names those terms (the reciprocal variance and its square, the scaled weight, the bias
  row, the two partial-sum reductions, and the chain from the reduced sums to the rectified output of the second
  stretch) and reads the fold of the program's segments at each such buffer back to its term.
-/
import proofs.«117550_j41832981463347_2_alg».proof.Proof.Gen.KernelIdeal.Frame
import Idealize.ShloMosaic.Lib.StableHlo.Run

set_option maxRecDepth 16384

noncomputable section

namespace Cert.KernelIdeal.HostK

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The terms -/

/-- The reciprocal of the variance, entry by entry: one divided by it. -/
def ivOf (var : FVec F S256x32 .f32) : FVec F S256x32 .f32 :=
  Host.divf (F := F) (broadcastInDim S256x32 ![] bcast_S_S256x32 (constant (F := F) S_ .f32 0x3F800000#32)) var

/-- The reciprocal variance squared. -/
def iv2Of (var : FVec F S256x32 .f32) : FVec F S256x32 .f32 :=
  mulf (F := F) (ivOf var) (ivOf var)

/-- The weight scaled by the squared reciprocal variance. -/
def wiv2Of (W var : FVec F S256x32 .f32) : FVec F S256x32 .f32 :=
  mulf (F := F) W (iv2Of var)

/-- The bias row: the column sums of the squared weight scaled by the squared reciprocal variance, as one row. -/
def biasOf (W var : FVec F S256x32 .f32) : FVec F S1x32 .f32 :=
  shapeCast S1x32
    (Host.reduceAdd (F := F) (mulf (F := F) (mulf (F := F) W W) (iv2Of var)) (constant (F := F) S_ .f32 0x00000000#32)
      reducesTo_S256x32_S32_d0 h_S_)
    shapeCasts_S32_S1x32

/-- The two partial rows added entry by entry, as a vector. -/
def sOf (p : FVec F S2x1x32 .f32) : FVec F S32 .f32 :=
  shapeCast S32
    (Host.reduceAdd (F := F) p (constant (F := F) S_ .f32 0x00000000#32) reducesTo_S2x1x32_S1x32_d0 h_S_)
    shapeCasts_S1x32_S32

/-- The two partial arrays added entry by entry. -/
def zunOf (p : FVec F S2x256x32 .f32) : FVec F S256x32 .f32 :=
  Host.reduceAdd (F := F) p (constant (F := F) S_ .f32 0x00000000#32) reducesTo_S2x256x32_S256x32_d0 h_S_

/-- The second stretch from the reduced sums on: the vector `s` spread over the rows, the centred and scaled array
    `z = (zun - W * s) * iv / s`, its columns divided by their sums of squares, the Gram matrix of the result times its
    product with the weight matrix, and the positive part of that. -/
def zoOf (s : FVec F S32 .f32) (zun W iv : FVec F S256x32 .f32) (weight : FVec F S256x256 .f32) : FVec F S32x256 .f32 :=
  let v13 : FVec F S1x32 .f32 := broadcastInDim S1x32 ![1] bcast_S32_S1x32_1 s
  let v14 : FVec F S256x32 .f32 := broadcastInDim S256x32 ![0, 1] bcast_S1x32_S256x32_0_1 v13
  let v15 : FVec F S256x32 .f32 := mulf (F := F) W v14
  let v16 : FVec F S256x32 .f32 := subf (F := F) zun v15
  let v17 : FVec F S256x32 .f32 := mulf (F := F) v16 iv
  let v18 : FVec F S1x32 .f32 := broadcastInDim S1x32 ![1] bcast_S32_S1x32_1 s
  let v19 : FVec F S256x32 .f32 := broadcastInDim S256x32 ![0, 1] bcast_S1x32_S256x32_0_1 v18
  let v20 : FVec F S256x32 .f32 := Host.divf (F := F) v17 v19
  let v21 : FVec F S256x32 .f32 := mulf (F := F) v20 v20
  let v22 : FVec F S32 .f32 :=
    Host.reduceAdd (F := F) v21 (constant (F := F) S_ .f32 0x00000000#32) reducesTo_S256x32_S32_d0 h_S_
  let v23 : FVec F S1x32 .f32 := broadcastInDim S1x32 ![1] bcast_S32_S1x32_1 v22
  let v24 : FVec F S256x32 .f32 := broadcastInDim S256x32 ![0, 1] bcast_S1x32_S256x32_0_1 v23
  let v25 : FVec F S256x32 .f32 := Host.divf (F := F) v20 v24
  let v26 : FVec F S32x256 .f32 := transpose S32x256 [1, 0] v25 transposes_S256x32_S32x256_1_0
  let v27 : FVec F S32x32 .f32 := Host.dotGeneral (F := F) dot_S32x256_S256x32_S32x32_1_0_0_1_n_n none v26 v25
  let v28 : FVec F S32x256 .f32 := transpose S32x256 [1, 0] v25 transposes_S256x32_S32x256_1_0
  let v29 : FVec F S32x256 .f32 := Host.dotGeneral (F := F) dot_S32x256_S256x256_S32x256_1_0_0_1_n_n none v28 weight
  let v30 : FVec F S32x256 .f32 := Host.dotGeneral (F := F) dot_S32x32_S32x256_S32x256_1_0_0_1_n_n none v27 v29
  maximumf (F := F) v30 (broadcastInDim S32x256 ![] bcast_S_S32x256 (constant (F := F) S_ .f32 0x00000000#32))

variable (m : (ℓ : Loc nD τ sig) → Buf (Elt F) ℓ) (ρ : Dev nD → PrngReg)

/-! ## The first stretch: what region 0 enters with -/

/-- The input, as a matrix of 262144 rows. -/
theorem W1_v0 (c : Dev nD) : W1 m ρ c (Proc.devRef .tc main_v0)
    = shapeCast S262144x256 (m ((c : Thread nD τ).loc main_arg0)) shapeCasts_S1x256x512x512_S262144x256 := by
  show StableHlo.after hostOps0 (W0 m ρ c) (Proc.devRef .tc main_v0) = _
  after_results
  rfl

theorem W1_v2 (c : Dev nD) : W1 m ρ c (Proc.devRef .tc main_v2) = ivOf (m ((c : Thread nD τ).loc main_arg2)) := by
  show StableHlo.after hostOps0 (W0 m ρ c) (Proc.devRef .tc main_v2) = _
  after_results
  rfl

theorem W1_v3 (c : Dev nD) : W1 m ρ c (Proc.devRef .tc main_v3) = iv2Of (m ((c : Thread nD τ).loc main_arg2)) := by
  show StableHlo.after hostOps0 (W0 m ρ c) (Proc.devRef .tc main_v3) = _
  after_results
  rfl

theorem W1_v4 (c : Dev nD) : W1 m ρ c (Proc.devRef .tc main_v4)
    = wiv2Of (m ((c : Thread nD τ).loc main_arg1)) (m ((c : Thread nD τ).loc main_arg2)) := by
  show StableHlo.after hostOps0 (W0 m ρ c) (Proc.devRef .tc main_v4) = _
  after_results
  rfl

theorem W1_v8 (c : Dev nD) : W1 m ρ c (Proc.devRef .tc main_v8)
    = biasOf (m ((c : Thread nD τ).loc main_arg1)) (m ((c : Thread nD τ).loc main_arg2)) := by
  show StableHlo.after hostOps0 (W0 m ρ c) (Proc.devRef .tc main_v8) = _
  after_results
  rfl

/-! ## The second stretch and the inlined rectifier: what region 1 enters with

The two stretches' fold is first read over an arbitrary valuation at the first region's exit: at the rectifier's result
it is the chain above applied to the five buffers the stretches read, whatever they hold. -/

/-- Over any contents `V` at the first region's exit, the rectifier's result after both stretches. -/
theorem after1_v31 (V : Valuation τ sig (Elt F)) :
    StableHlo.after hostOps1_1 (StableHlo.after hostOps1 V) (Proc.devRef .tc main_v31)
      = zoOf (sOf (V (Proc.devRef .tc main_v9_1))) (zunOf (V (Proc.devRef .tc main_v9_2)))
          (V (Proc.devRef .tc main_arg1)) (V (Proc.devRef .tc main_v2)) (V (Proc.devRef .tc main_arg3)) := by
  after_results_simp
  rfl

/-- Over any contents `V` at the first region's exit, a buffer neither stretch writes keeps them. -/
theorem after1_v9_0 (V : Valuation τ sig (Elt F)) :
    StableHlo.after hostOps1_1 (StableHlo.after hostOps1 V) (Proc.devRef .tc main_v9_0) = V (Proc.devRef .tc main_v9_0) := by
  after_results_simp

/-! What the first region's exit holds at the five buffers the stretches read: its two summed outputs are arrays of
    the region; the two arguments and the reciprocal variance are not, so they are as the first stretch left them. -/

theorem W1_arg1 (c : Dev nD) : W1 m ρ c (Proc.devRef .tc main_arg1) = m ((c : Thread nD τ).loc main_arg1) := by
  show StableHlo.after hostOps0 (W0 m ρ c) (Proc.devRef .tc main_arg1) = _
  after_results <;> rfl

theorem W1_arg3 (c : Dev nD) : W1 m ρ c (Proc.devRef .tc main_arg3) = m ((c : Thread nD τ).loc main_arg3) := by
  show StableHlo.after hostOps0 (W0 m ρ c) (Proc.devRef .tc main_arg3) = _
  after_results <;> rfl

theorem W2_v9_0 (c : Dev nD) : W2 m ρ c (Proc.devRef .tc main_v9_0) = (dat0 (V1 m ρ) c).arrAt 4 cfg0.N :=
  W2_arr m ρ c 4

theorem W2_v9_1 (c : Dev nD) : W2 m ρ c (Proc.devRef .tc main_v9_1) = (dat0 (V1 m ρ) c).arrAt 5 cfg0.N :=
  W2_arr m ρ c 5

theorem W2_v9_2 (c : Dev nD) : W2 m ρ c (Proc.devRef .tc main_v9_2) = (dat0 (V1 m ρ) c).arrAt 6 cfg0.N :=
  W2_arr m ρ c 6

theorem W2_arg1 (c : Dev nD) : W2 m ρ c (Proc.devRef .tc main_arg1) = m ((c : Thread nD τ).loc main_arg1) :=
  (W2_of_ne m ρ c main_arg1 (by decide)).trans (W1_arg1 m ρ c)

theorem W2_arg3 (c : Dev nD) : W2 m ρ c (Proc.devRef .tc main_arg3) = m ((c : Thread nD τ).loc main_arg3) :=
  (W2_of_ne m ρ c main_arg3 (by decide)).trans (W1_arg3 m ρ c)

theorem W2_v2 (c : Dev nD) : W2 m ρ c (Proc.devRef .tc main_v2) = ivOf (m ((c : Thread nD τ).loc main_arg2)) :=
  (W2_of_ne m ρ c main_v2 (by decide)).trans (W1_v2 m ρ c)

/-- Region 1's first array is region 0's fifth, untouched by the stretches between. -/
theorem W4_v9_0 (c : Dev nD) : W4 m ρ c (Proc.devRef .tc main_v9_0) = (dat0 (V1 m ρ) c).arrAt 4 cfg0.N :=
  (after1_v9_0 (W2 m ρ c)).trans (W2_v9_0 m ρ c)

/-- The rectified output of the second stretch, from region 0's two summed outputs and the launch arguments. -/
theorem W4_v31 (c : Dev nD) : W4 m ρ c (Proc.devRef .tc main_v31)
    = zoOf (sOf ((dat0 (V1 m ρ) c).arrAt 5 cfg0.N)) (zunOf ((dat0 (V1 m ρ) c).arrAt 6 cfg0.N))
        (m ((c : Thread nD τ).loc main_arg1)) (ivOf (m ((c : Thread nD τ).loc main_arg2)))
        (m ((c : Thread nD τ).loc main_arg3)) := by
  refine (after1_v31 (W2 m ρ c)).trans ?_
  rw [W2_v9_1 m ρ c, W2_v9_2 m ρ c, W2_arg1 m ρ c, W2_v2 m ρ c, W2_arg3 m ρ c]

/-! ## The last stretch: the result -/

/-- Over any contents `V` at the second region's exit, the result is its output array reshaped. -/
theorem after2_v33 (V : Valuation τ sig (Elt F)) :
    StableHlo.after hostOps2 V (Proc.devRef .tc main_v33)
      = shapeCast S1x256x512x512 (V (Proc.devRef .tc main_v32)) shapeCasts_S262144x256_S1x256x512x512 := by
  after_results
  rfl

theorem W6_v33 (c : Dev nD) : W6 m ρ c (Proc.devRef .tc main_v33)
    = shapeCast S1x256x512x512 ((dat1 (V4 m ρ) c).arrAt 2 cfg1.N) shapeCasts_S262144x256_S1x256x512x512 := by
  refine (after2_v33 (W5 m ρ c)).trans ?_
  rw [show W5 m ρ c (Proc.devRef .tc main_v32) = (dat1 (V4 m ρ) c).arrAt 2 cfg1.N from W5_arr m ρ c 2]

end Cert.KernelIdeal.HostK

end
-- ==== Proof.Region1.lean ====
/- Region 1 of the idealized kernel (the second launch: out = q @ zo, a grid of 32 points, point `t` working on rows
   8192 t … 8192 t + 8191), read off the generated frame at the extended reals: what the region's output array holds
   after the run, as a function of the arrays the region finds (the parameter `V`).
   The body's one payload at entry (r, o) of its block is the sum over the 32 contracted positions of the products of
   the left block's row r and the right block's column o: the two shape casts are to the same shape, the cast of the
   right operand to bf16 is the identity on the extended reals, and the accumulator is the zero splat (`pay_apply`).
   The left operand's block at point `t` is rows 8192 t + r of its array (`iblk_lhs`), the right operand's block is its
   whole array at every point (`iblk_rhs`), and the output's block at point `t` is rows 8192 t + r of the output; so
   what point `t` writes back is block `t` of the matrix product (`pay_block`, `flushed_eq`). Every point writes back, and
   row r of the output lies in the block of point r / 8192 (`covered`), so the output array ends at the matrix product
   (`final`). -/
import proofs.«117550_j41832981463347_2_alg».proof.Proof.Gen.KernelIdeal.Frame
import Idealize.ShloMosaic.Lib.Pipeline.Value
import Idealize.ShloMosaic.Lib.ValueIdx
import Idealize.ShloMosaic.PureOps.Ideal.Laws

noncomputable section

namespace Cert.KernelIdeal.R1

open Cert.KernelIdeal Cert.KernelIdeal.Gen Idealize.ShloMosaic Idealize.ShloMosaic.ValueIdx Idealize.ShloMosaic.TcCoe Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- the matrix product of a [262144,32] by a [32,256] array, entry by entry -/
def prod (q : S262144x32.Idx → EReal) (zo : S32x256.Idx → EReal) : S262144x256.Idx → EReal :=
  fun i => ∑ v : Fin 32, q (ix2 (i 0) v) * zo (ix2 v (i 1))

/-- The left factor of the block product at output entry `i` and contraction index `k` sits in row `i 0` … -/
theorem lhs_row (i : S8192x256.Idx) (k : dot_S8192x32_S32x256_S8192x256_1_0_0_1_n_n.contr.Idx) :
    (dot_S8192x32_S32x256_S8192x256_1_0_0_1_n_n.lhsIdx i k 0).val = (i 0).val := by
  unfold DotDims.lhsIdx
  rw [dif_neg (show ¬(0 : Fin S8192x32.rank) ∈ dot_S8192x32_S32x256_S8192x256_1_0_0_1_n_n.lhsBatch by decide), dif_pos (show (0 : Fin S8192x32.rank) ∈ dot_S8192x32_S32x256_S8192x256_1_0_0_1_n_n.lhsNonContracting by decide)]
  rfl
/-- … and column `k`; -/
theorem lhs_col (i : S8192x256.Idx) (k : dot_S8192x32_S32x256_S8192x256_1_0_0_1_n_n.contr.Idx) :
    (dot_S8192x32_S32x256_S8192x256_1_0_0_1_n_n.lhsIdx i k 1).val = (k ⟨0, by decide⟩).val :=
  dot_S8192x32_S32x256_S8192x256_1_0_0_1_n_n.lhsIdx_val_of_single rfl i k
/-- the right factor sits in row `k` … -/
theorem rhs_row (i : S8192x256.Idx) (k : dot_S8192x32_S32x256_S8192x256_1_0_0_1_n_n.contr.Idx) :
    (dot_S8192x32_S32x256_S8192x256_1_0_0_1_n_n.rhsIdx i k 0).val = (k ⟨0, by decide⟩).val :=
  dot_S8192x32_S32x256_S8192x256_1_0_0_1_n_n.rhsIdx_val_of_single rfl i k
/-- … and column `i 1`. -/
theorem rhs_col (i : S8192x256.Idx) (k : dot_S8192x32_S32x256_S8192x256_1_0_0_1_n_n.contr.Idx) :
    (dot_S8192x32_S32x256_S8192x256_1_0_0_1_n_n.rhsIdx i k 1).val = (i 1).val := by
  unfold DotDims.rhsIdx
  rw [dif_neg (show ¬(1 : Fin S32x256.rank) ∈ dot_S8192x32_S32x256_S8192x256_1_0_0_1_n_n.rhsBatch by decide), dif_pos (show (1 : Fin S32x256.rank) ∈ dot_S8192x32_S32x256_S8192x256_1_0_0_1_n_n.rhsNonContracting by decide)]
  rfl

/-- The body's payload at entry (r, o) of its block: the cast to bf16 is the identity on the extended reals, the
    accumulator is zero, so what is left is the sum over the 32 contracted positions of the products. -/
theorem pay_apply (x0 : FVec Ideal S8192x32 .bf16) (x1 : FVec Ideal S32x256 .f32) (r : Fin 8192) (o : Fin 256) :
    k1_pay1 (F := Ideal) x0 x1 (ix2 r o) = ∑ v : Fin 32, x0 (ix2 r v) * x1 (ix2 v o) := by
  unfold k1_pay1
  rw [shapeCast_self, shapeCast_self]
  refine (Ideal.matmul_constant_zero_apply dot_S8192x32_S32x256_S8192x256_1_0_0_1_n_n none x0 (truncf .bf16 x1 bitsLt_bf16_f32) (ix2 r o)).trans ?_
  rw [← Equiv.sum_comp (contrEquiv1 dot_S8192x32_S32x256_S8192x256_1_0_0_1_n_n 32 rfl rfl).symm]
  refine Finset.sum_congr rfl fun k _ => ?_
  have hk := contrEquiv1_symm_val dot_S8192x32_S32x256_S8192x256_1_0_0_1_n_n 32 rfl rfl k
  have el : dot_S8192x32_S32x256_S8192x256_1_0_0_1_n_n.lhsIdx (ix2 r o) ((contrEquiv1 dot_S8192x32_S32x256_S8192x256_1_0_0_1_n_n 32 rfl rfl).symm k) = ix2 r k := funext fun a => Fin.ext (by
    match a with
    | ⟨0, _⟩ => exact lhs_row _ _
    | ⟨1, _⟩ => exact (lhs_col _ _).trans hk)
  have er : dot_S8192x32_S32x256_S8192x256_1_0_0_1_n_n.rhsIdx (ix2 r o) ((contrEquiv1 dot_S8192x32_S32x256_S8192x256_1_0_0_1_n_n 32 rfl rfl).symm k) = ix2 k o := funext fun a => Fin.ext (by
    match a with
    | ⟨0, _⟩ => exact (rhs_row _ _).trans hk
    | ⟨1, _⟩ => exact rhs_col _ _)
  rw [el, er]
  rfl

/-- The printed index maps, decided once over the grid: at point `t` the left operand's block and the output's block
    are block `(t, 0)` of their arrays, and the right operand's block is the whole array. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- Row `r` of the left operand's block at point `t` is row `8192 t + r` of the array. -/
theorem iblk_lhs (c : Dev nD) (t : Fin cfg1.N) (r : Fin 8192) (v : Fin 32) (k : S262144x32.Idx)
    (hk0 : (k 0).val = t.val * 8192 + r.val) (hk1 : (k 1).val = v.val) :
    (iblk1 V c 0 t : FVec Ideal S8192x32 .bf16) (ix2 r v) = (V c main_v9_0 : S262144x32.Idx → EReal) k := by
  obtain ⟨e0, e1, -, -, -, -⟩ := idx_facts t
  unfold iblk1
  rw [View.read_apply]
  show V c main_v9_0 _ = V c main_v9_0 _
  congr 1
  funext a
  apply Fin.ext
  match a with
  | ⟨0, _⟩ => show win1_0.index t (0 : Fin 2) * 8192 + 1 * r.val = (k 0).val; rw [e0, hk0]; omega
  | ⟨1, _⟩ => show win1_0.index t (1 : Fin 2) * 32 + 1 * v.val = (k 1).val; rw [e1, hk1]; omega

/-- The right operand's block at every point is the whole array. -/
theorem iblk_rhs (c : Dev nD) (t : Fin cfg1.N) (v : Fin 32) (o : Fin 256) :
    (iblk1 V c 1 t : FVec Ideal S32x256 .f32) (ix2 v o) = (V c main_v31 : S32x256.Idx → EReal) (ix2 v o) := by
  obtain ⟨-, -, e2, e3, -, -⟩ := idx_facts t
  unfold iblk1
  rw [View.read_apply]
  show V c main_v31 _ = V c main_v31 _
  congr 1
  funext a
  apply Fin.ext
  match a with
  | ⟨0, _⟩ => show win1_1.index t (0 : Fin 2) * 32 + 1 * v.val = v.val; rw [e2]; omega
  | ⟨1, _⟩ => show win1_1.index t (1 : Fin 2) * 256 + 1 * o.val = o.val; rw [e3]; omega

/-- A block product is the block of the product: when the left block holds rows `8192 n + r` of `q` and the right block
    is `zo`, entry (r, o) of the body's payload is entry (8192 n + r, o) of `prod q zo`. -/
theorem pay_block (q : S262144x32.Idx → EReal) (zo : S32x256.Idx → EReal)
    (x0 : FVec Ideal S8192x32 .bf16) (x1 : FVec Ideal S32x256 .f32) (n : Nat)
    (h0 : ∀ (r : Fin 8192) (v : Fin 32) (k : S262144x32.Idx), (k 0).val = n * 8192 + r.val → (k 1).val = v.val → x0 (ix2 r v) = q k)
    (h1 : ∀ (v : Fin 32) (o : Fin 256), x1 (ix2 v o) = zo (ix2 v o))
    (y : S8192x256.Idx) (i : S262144x256.Idx) (hi0 : (i 0).val = n * 8192 + (y 0).val) (hi1 : (i 1).val = (y 1).val) :
    k1_pay1 (F := Ideal) x0 x1 y = prod q zo i := by
  obtain ⟨r, o, rfl⟩ : ∃ (r : Fin 8192) (o : Fin 256), y = ix2 r o := ⟨y 0, y 1, eq_ix2 y⟩
  rw [pay_apply]
  unfold prod
  refine Finset.sum_congr rfl fun v _ => ?_
  rw [h0 r v (ix2 (i 0) v) hi0 rfl, h1 v o]
  have e : (i 1 : Fin 256) = o := Fin.ext hi1
  rw [e]

/-- WHAT POINT `t` WRITES BACK is block `t` of the product of the two arrays as the region finds them. -/
theorem flushed_eq (c : Dev nD) (t : Fin cfg1.N) :
    (dat1 (F := Ideal) V c).flushed 2 t
      = ((cfg1.win 2).blk t).view.read (Elt Ideal) (prod (V c main_v9_0) (V c main_v31)) := by
  show (cfg1.win 2).cut (grid1.coords t) ((dat1 V c).after 2 t) = _
  rw [after1_2]
  unfold out1_2
  rw [View.canon_unit_zero hz]
  simp only [View.ld_unit_zero (S := S8192x32) hz, View.ld_unit_zero (S := S32x256) hz]
  obtain ⟨-, -, -, -, e4, e5⟩ := idx_facts t
  funext j
  show k1_pay1 (F := Ideal) (iblk1 V c 0 t) (iblk1 V c 1 t) ((cfg1.win 2).xinj (grid1.coords t) j)
    = prod (V c main_v9_0) (V c main_v31) (((cfg1.win 2).blk t).view.emb j)
  refine pay_block (V c main_v9_0) (V c main_v31) (iblk1 V c 0 t) (iblk1 V c 1 t) t.val
    (fun r v k h0 h1 => iblk_lhs V c t r v k h0 h1) (fun v o => iblk_rhs V c t v o)
    ((cfg1.win 2).xinj (grid1.coords t) j) (((cfg1.win 2).blk t).view.emb j) ?_ ?_
  · show win1_2.index t (0 : Fin 2) * 8192 + 1 * (j 0).val = t.val * 8192 + (j 0).val
    rw [e4]; omega
  · show win1_2.index t (1 : Fin 2) * 256 + 1 * (j 1).val = (j 1).val
    rw [e5]; omega

/-- An index of the array is in point `t`'s block iff each coordinate is in the block's range on its axis. -/
theorem mem_blk (t : Fin cfg1.N) (i : S262144x256.Idx) :
    i ∈ ((cfg1.win 2).blk t).view.set ↔ ∀ a : Fin 2, win1_2.index t a * S8192x256.size a ≤ (i a).val ∧ (i a).val < win1_2.index t a * S8192x256.size a + S8192x256.size a := by
  show i ∈ ((View.whole main_v32).slice (win1_2.rect t)).set ↔ _
  rw [View.set_slice_whole, Rect.mem_set_unit]
  exact Iff.rfl

/-- Every entry of the output array is in some point's block: row `r` is in the block of point `r / 8192`. -/
theorem covered (i : S262144x256.Idx) :
    ∃ t : Fin cfg1.N, (cfg1.win 2).flush t = true ∧ i ∈ ((cfg1.win 2).blk t).view.set := by
  have hi0 : (i 0).val < 262144 := idx2_lt0 i
  have hi1 : (i 1).val < 256 := idx2_lt1 i
  have hN : cfg1.N = 32 := N_1
  let t : Fin cfg1.N := ⟨(i 0).val / 8192, by rw [hN]; omega⟩
  obtain ⟨-, -, -, -, e4, e5⟩ := idx_facts t
  have e4' : win1_2.index t (0 : Fin 2) = (i 0).val / 8192 := e4
  refine ⟨t, flush1_2 t, ?_⟩
  rw [mem_blk]
  intro a
  match a with
  | ⟨0, _⟩ => show win1_2.index t (0 : Fin 2) * 8192 ≤ (i 0).val ∧ (i 0).val < win1_2.index t (0 : Fin 2) * 8192 + 8192; omega
  | ⟨1, _⟩ => show win1_2.index t (1 : Fin 2) * 256 ≤ (i 1).val ∧ (i 1).val < win1_2.index t (1 : Fin 2) * 256 + 256; omega

/-- THE OUTPUT ARRAY after the run is the product of the two arrays the region finds. -/
theorem final (c : Dev nD) : (dat1 (F := Ideal) V c).arrAt 2 cfg1.N = prod (V c main_v9_0) (V c main_v31) :=
  (dat1 (F := Ideal) V c).arrAt_eq_of_cover 2 (prod (V c main_v9_0) (V c main_v31)) (fun t _ => flushed_eq V c t) covered

end Cert.KernelIdeal.R1

end
-- ==== Proof.R0Out.lean ====
/-
  What one run of the first kernel's body leaves in its three output blocks, case by case.

  At the first point of a core's sweep (case A) the body zeroes the two accumulator blocks and then adds the point's
  contribution; at every other point (case B) it adds the contribution to what the point before left. The assignment
  block is written whole at every point. Each block's contents are the body's payloads of the blocks it loaded.
-/
import proofs.«117550_j41832981463347_2_alg».proof.Proof.Gen.KernelIdeal.Frame
import Idealize.ShloMosaic.Lib.Pipeline.Value
import Idealize.ShloMosaic.Lib.Tactic

noncomputable section

namespace Cert.KernelIdeal.R0

open Cert.KernelIdeal Cert.KernelIdeal.Gen
open Idealize.ShloMosaic Idealize.ShloMosaic.TcCoe Idealize.SL.Sem Idealize.ShloMosaic.Tactic
open Idealize.ShloMosaic.Pipeline (Dat)

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- The assignment block, either case: the body's one whole-block store of `k0_pay7` of the four input blocks. -/
theorem out_A_4 (c : Dev nD) (i : grid0.Coords) (a2 : Memref sig .tc .vmem S4096x256 .f32) (h2 : a2.IsWhole) (a3 : Memref sig .tc .vmem S256x32 .f32) (h3 : a3.IsWhole) (a4 : Memref sig .tc .vmem S256x32 .f32) (h4 : a4.IsWhole) (a5 : Memref sig .tc .vmem S1x32 .f32) (h5 : a5.IsWhole) (a6 : Memref sig .tc .vmem S4096x32 .bf16) (h6 : a6.IsWhole) (a7 : Memref sig .tc .vmem S1x1x32 .f32) (h7 : a7.IsWhole) (a8 : Memref sig .tc .vmem S1x256x32 .f32) (h8 : a8.IsWhole) (hc : cond0_0 i) (x0 : Vec F S4096x256 .f32) (x1 : Vec F S256x32 .f32) (x2 : Vec F S256x32 .f32) (x3 : Vec F S1x32 .f32) :
    out0_A_4 c i a2 h2 a3 h3 a4 h4 a5 h5 a6 h6 a7 h7 a8 h8 hc x0 x1 x2 x3 = k0_pay7 x0 x1 x2 x3 := by
  unfold out0_A_4
  rw [View.read_writes_eq_canon _ _ _ (cover0_A_4 c i a2 h2 a3 h3 a4 h4 a5 h5 a6 h6 a7 h7 a8 h8 hc x0 x1 x2 x3)]
  unfold kernelRun0_A
  dsimp only
  rw [View.canon_unit_zero hz2]
  simp only [View.readAt_eq_ld, h2.read_unread, h3.read_unread, h4.read_unread, h5.read_unread, h7.read_unread, h8.read_unread,
    View.ld_unit_zero (S := S4096x256) hz2, View.ld_unit_zero (S := S256x32) hz2, View.ld_unit_zero (S := S1x32) hz2,
    View.ld_unit_zero (S := S1x1x32) hz3, View.ld_unit_zero (S := S1x256x32) hz3]

theorem out_B_4 (c : Dev nD) (i : grid0.Coords) (a2 : Memref sig .tc .vmem S4096x256 .f32) (h2 : a2.IsWhole) (a3 : Memref sig .tc .vmem S256x32 .f32) (h3 : a3.IsWhole) (a4 : Memref sig .tc .vmem S256x32 .f32) (h4 : a4.IsWhole) (a5 : Memref sig .tc .vmem S1x32 .f32) (h5 : a5.IsWhole) (a6 : Memref sig .tc .vmem S4096x32 .bf16) (h6 : a6.IsWhole) (a7 : Memref sig .tc .vmem S1x1x32 .f32) (h7 : a7.IsWhole) (a8 : Memref sig .tc .vmem S1x256x32 .f32) (h8 : a8.IsWhole) (hc : ¬cond0_0 i) (x0 : Vec F S4096x256 .f32) (x1 : Vec F S256x32 .f32) (x2 : Vec F S256x32 .f32) (x3 : Vec F S1x32 .f32) (xo5 : Vec F S1x1x32 .f32) (xo6 : Vec F S1x256x32 .f32) :
    out0_B_4 c i a2 h2 a3 h3 a4 h4 a5 h5 a6 h6 a7 h7 a8 h8 hc x0 x1 x2 x3 xo5 xo6 = k0_pay7 x0 x1 x2 x3 := by
  unfold out0_B_4
  rw [View.read_writes_eq_canon _ _ _ (cover0_B_4 c i a2 h2 a3 h3 a4 h4 a5 h5 a6 h6 a7 h7 a8 h8 hc x0 x1 x2 x3 xo5 xo6)]
  unfold kernelRun0_B
  dsimp only
  rw [View.canon_unit_zero hz2]
  simp only [View.readAt_eq_ld, h2.read_unread, h3.read_unread, h4.read_unread, h5.read_unread, h7.read_unread, h8.read_unread,
    View.ld_unit_zero (S := S4096x256) hz2, View.ld_unit_zero (S := S256x32) hz2, View.ld_unit_zero (S := S1x32) hz2,
    View.ld_unit_zero (S := S1x1x32) hz3, View.ld_unit_zero (S := S1x256x32) hz3]

/-- The column-sum accumulator at a later point: the point's column sums added to what it held. -/
theorem out_B_5 (c : Dev nD) (i : grid0.Coords) (a2 : Memref sig .tc .vmem S4096x256 .f32) (h2 : a2.IsWhole) (a3 : Memref sig .tc .vmem S256x32 .f32) (h3 : a3.IsWhole) (a4 : Memref sig .tc .vmem S256x32 .f32) (h4 : a4.IsWhole) (a5 : Memref sig .tc .vmem S1x32 .f32) (h5 : a5.IsWhole) (a6 : Memref sig .tc .vmem S4096x32 .bf16) (h6 : a6.IsWhole) (a7 : Memref sig .tc .vmem S1x1x32 .f32) (h7 : a7.IsWhole) (a8 : Memref sig .tc .vmem S1x256x32 .f32) (h8 : a8.IsWhole) (hc : ¬cond0_0 i) (x0 : Vec F S4096x256 .f32) (x1 : Vec F S256x32 .f32) (x2 : Vec F S256x32 .f32) (x3 : Vec F S1x32 .f32) (xo5 : Vec F S1x1x32 .f32) (xo6 : Vec F S1x256x32 .f32) :
    out0_B_5 c i a2 h2 a3 h3 a4 h4 a5 h5 a6 h6 a7 h7 a8 h8 hc x0 x1 x2 x3 xo5 xo6 = k0_pay1 (k0_pay6 x0 x1 x2 x3) (k0_pay8 xo5) := by
  unfold out0_B_5
  rw [View.read_writes_eq_canon _ _ _ (cover0_B_5 c i a2 h2 a3 h3 a4 h4 a5 h5 a6 h6 a7 h7 a8 h8 hc x0 x1 x2 x3 xo5 xo6)]
  unfold kernelRun0_B
  dsimp only
  sl_unfold_words
  rw [View.canon_unit_zero hz3]
  simp only [View.readAt_eq_ld, h2.read_unread, h3.read_unread, h4.read_unread, h5.read_unread, h7.read_unread, h8.read_unread,
    View.ld_unit_zero (S := S4096x256) hz2, View.ld_unit_zero (S := S256x32) hz2, View.ld_unit_zero (S := S1x32) hz2,
    View.ld_unit_zero (S := S1x1x32) hz3, View.ld_unit_zero (S := S1x256x32) hz3]

/-- The cross-product accumulator at a later point: the point's product added to what it held. -/
theorem out_B_6 (c : Dev nD) (i : grid0.Coords) (a2 : Memref sig .tc .vmem S4096x256 .f32) (h2 : a2.IsWhole) (a3 : Memref sig .tc .vmem S256x32 .f32) (h3 : a3.IsWhole) (a4 : Memref sig .tc .vmem S256x32 .f32) (h4 : a4.IsWhole) (a5 : Memref sig .tc .vmem S1x32 .f32) (h5 : a5.IsWhole) (a6 : Memref sig .tc .vmem S4096x32 .bf16) (h6 : a6.IsWhole) (a7 : Memref sig .tc .vmem S1x1x32 .f32) (h7 : a7.IsWhole) (a8 : Memref sig .tc .vmem S1x256x32 .f32) (h8 : a8.IsWhole) (hc : ¬cond0_0 i) (x0 : Vec F S4096x256 .f32) (x1 : Vec F S256x32 .f32) (x2 : Vec F S256x32 .f32) (x3 : Vec F S1x32 .f32) (xo5 : Vec F S1x1x32 .f32) (xo6 : Vec F S1x256x32 .f32) :
    out0_B_6 c i a2 h2 a3 h3 a4 h4 a5 h5 a6 h6 a7 h7 a8 h8 hc x0 x1 x2 x3 xo5 xo6 = k0_pay2 (k0_pay5 x0) (k0_pay6 x0 x1 x2 x3) xo6 := by
  unfold out0_B_6
  rw [View.read_writes_eq_canon _ _ _ (cover0_B_6 c i a2 h2 a3 h3 a4 h4 a5 h5 a6 h6 a7 h7 a8 h8 hc x0 x1 x2 x3 xo5 xo6)]
  unfold kernelRun0_B
  dsimp only
  sl_unfold_words
  rw [View.canon_unit_zero hz3]
  simp only [View.readAt_eq_ld, h2.read_unread, h3.read_unread, h4.read_unread, h5.read_unread, h7.read_unread, h8.read_unread,
    View.ld_unit_zero (S := S4096x256) hz2, View.ld_unit_zero (S := S256x32) hz2, View.ld_unit_zero (S := S1x32) hz2,
    View.ld_unit_zero (S := S1x1x32) hz3, View.ld_unit_zero (S := S1x256x32) hz3]

/-- The column-sum accumulator at a sweep's first point: the point's column sums added to the zero block just stored. -/
theorem out_A_5 (c : Dev nD) (i : grid0.Coords) (a2 : Memref sig .tc .vmem S4096x256 .f32) (h2 : a2.IsWhole) (a3 : Memref sig .tc .vmem S256x32 .f32) (h3 : a3.IsWhole) (a4 : Memref sig .tc .vmem S256x32 .f32) (h4 : a4.IsWhole) (a5 : Memref sig .tc .vmem S1x32 .f32) (h5 : a5.IsWhole) (a6 : Memref sig .tc .vmem S4096x32 .bf16) (h6 : a6.IsWhole) (a7 : Memref sig .tc .vmem S1x1x32 .f32) (h7 : a7.IsWhole) (a8 : Memref sig .tc .vmem S1x256x32 .f32) (h8 : a8.IsWhole) (hc : cond0_0 i) (x0 : Vec F S4096x256 .f32) (x1 : Vec F S256x32 .f32) (x2 : Vec F S256x32 .f32) (x3 : Vec F S1x32 .f32) :
    out0_A_5 c i a2 h2 a3 h3 a4 h4 a5 h5 a6 h6 a7 h7 a8 h8 hc x0 x1 x2 x3 = k0_pay1 (k0_pay6 x0 x1 x2 x3) (k0_pay8 (k0_pay3 (F := F))) := by
  unfold out0_A_5
  rw [View.read_writes_eq_canon _ _ _ (cover0_A_5 c i a2 h2 a3 h3 a4 h4 a5 h5 a6 h6 a7 h7 a8 h8 hc x0 x1 x2 x3)]
  unfold kernelRun0_A
  dsimp only
  sl_unfold_words
  rw [View.canon_cons_unit_zero (S := S1x1x32) hz3, View.readCov_unit_zero (S := S1x1x32) _ hz3]
  simp only [View.readAt_eq_ld, h2.read_unread, h3.read_unread, h4.read_unread, h5.read_unread, h7.read_unread, h8.read_unread,
    View.ld_unit_zero (S := S4096x256) hz2, View.ld_unit_zero (S := S256x32) hz2, View.ld_unit_zero (S := S1x32) hz2,
    View.ld_unit_zero (S := S1x1x32) hz3, View.ld_unit_zero (S := S1x256x32) hz3]

/-- The cross-product accumulator at a sweep's first point: the point's product added to the zero block just stored. -/
theorem out_A_6 (c : Dev nD) (i : grid0.Coords) (a2 : Memref sig .tc .vmem S4096x256 .f32) (h2 : a2.IsWhole) (a3 : Memref sig .tc .vmem S256x32 .f32) (h3 : a3.IsWhole) (a4 : Memref sig .tc .vmem S256x32 .f32) (h4 : a4.IsWhole) (a5 : Memref sig .tc .vmem S1x32 .f32) (h5 : a5.IsWhole) (a6 : Memref sig .tc .vmem S4096x32 .bf16) (h6 : a6.IsWhole) (a7 : Memref sig .tc .vmem S1x1x32 .f32) (h7 : a7.IsWhole) (a8 : Memref sig .tc .vmem S1x256x32 .f32) (h8 : a8.IsWhole) (hc : cond0_0 i) (x0 : Vec F S4096x256 .f32) (x1 : Vec F S256x32 .f32) (x2 : Vec F S256x32 .f32) (x3 : Vec F S1x32 .f32) :
    out0_A_6 c i a2 h2 a3 h3 a4 h4 a5 h5 a6 h6 a7 h7 a8 h8 hc x0 x1 x2 x3 = k0_pay2 (k0_pay5 x0) (k0_pay6 x0 x1 x2 x3) (k0_pay4 (F := F)) := by
  unfold out0_A_6
  rw [View.read_writes_eq_canon _ _ _ (cover0_A_6 c i a2 h2 a3 h3 a4 h4 a5 h5 a6 h6 a7 h7 a8 h8 hc x0 x1 x2 x3)]
  unfold kernelRun0_A
  dsimp only
  sl_unfold_words
  rw [View.canon_cons_unit_zero (S := S1x256x32) hz3, View.readCov_unit_zero (S := S1x256x32) _ hz3]
  simp only [View.readAt_eq_ld, h2.read_unread, h3.read_unread, h4.read_unread, h5.read_unread, h7.read_unread, h8.read_unread,
    View.ld_unit_zero (S := S4096x256) hz2, View.ld_unit_zero (S := S256x32) hz2, View.ld_unit_zero (S := S1x32) hz2,
    View.ld_unit_zero (S := S1x1x32) hz3, View.ld_unit_zero (S := S1x256x32) hz3]

end Cert.KernelIdeal.R0

end
-- ==== Proof.R0Acc.lean ====
/-
  The first kernel's accumulators, point by point, at the ideal values.

  A core sweeps 32 row blocks. The column-sum block after point `n` of a sweep holds the sum, over the sweep's points
  so far, of the column sums of each point's assignment block; the cross-product block holds the sum of the products
  `xᵀ q` of each point's input block with its assignment block. Both are running totals from zero, so each is the sum
  of the contributions of the sweep's points up to `n`.
-/
import proofs.«117550_j41832981463347_2_alg».proof.Proof.R0Out
import Idealize.ShloMosaic.Lib.ValueIdx
import Idealize.ShloMosaic.Lib.ValueLayout
import Idealize.ShloMosaic.PureOps.Ideal.Laws

open scoped BigOperators

noncomputable section

namespace Cert.KernelIdeal.R0

open Cert.KernelIdeal Cert.KernelIdeal.Gen
open Idealize.ShloMosaic Idealize.ShloMosaic.TcCoe Idealize.SL.Sem Idealize.ShloMosaic.ValueIdx
open Idealize.ShloMosaic.Pipeline (Dat)

/-! ## The accumulating payloads read at an entry -/

/-- The column-sum payload: what the block held plus the column sums of the assignment block. -/
theorem pay1_apply (q : FVec Ideal S4096x32 .f32) (s : FVec Ideal S1x32 .f32) (v : Fin 32) :
    k0_pay1 (F := Ideal) q s (ix3 (0 : Fin 1) (0 : Fin 1) v) = s (ix2 (0 : Fin 1) v) + ∑ r : Fin 4096, q (ix2 r v) := by
  unfold k0_pay1
  refine (shapeCast_ab_1ab_apply (a := 1) (b := 32) _ shapeCasts_S1x32_S1x1x32 0 0 v).trans ?_
  refine congrArg (s (ix2 (0 : Fin 1) v) + ·) ?_
  refine (shapeCast_a_1a_apply (a := 32) _ shapeCasts_S32_S1x32 0 v).trans ?_
  refine (Ideal.multiReduction_add_single q 0x00000000#32 reduces_S4096x32_S32 _ _ (ix1 v)).trans ?_
  refine Finset.sum_congr rfl fun r _ => congrArg q (funext fun a => Fin.ext ?_)
  rw [Shape.Reduces.lift_val]
  match a with
  | ⟨0, _⟩ => rfl
  | ⟨1, _⟩ => rfl

/-- The running column sums re-read as a row. -/
theorem pay8_apply (x : FVec Ideal S1x1x32 .f32) (v : Fin 32) :
    k0_pay8 (F := Ideal) x (ix2 (0 : Fin 1) v) = x (ix3 (0 : Fin 1) (0 : Fin 1) v) := by
  unfold k0_pay8
  exact shapeCast_1ab_ab_apply (a := 1) (b := 32) x shapeCasts_S1x1x32_S1x32 0 v

/-- The zero block a sweep starts its column sums from. -/
theorem pay3_apply (v : Fin 32) : k0_pay3 (F := Ideal) (ix3 (0 : Fin 1) (0 : Fin 1) v) = 0 := by
  unfold k0_pay3
  refine (shapeCast_ab_1ab_apply (a := 1) (b := 32) _ shapeCasts_S1x32_S1x1x32 0 0 v).trans ?_
  exact Ideal.ofBits_zero_f32

/-- The zero block a sweep starts its cross product from. -/
theorem pay4_apply (d : Fin 256) (v : Fin 32) : k0_pay4 (F := Ideal) (ix3 (0 : Fin 1) d v) = 0 := by
  unfold k0_pay4
  refine (shapeCast_ab_1ab_apply (a := 256) (b := 32) _ shapeCasts_S256x32_S1x256x32 0 d v).trans ?_
  exact Ideal.ofBits_zero_f32

/-- The input block re-read at its own shape is itself. -/
theorem pay5_eq (x : FVec Ideal S4096x256 .f32) : k0_pay5 (F := Ideal) x = x := by
  unfold k0_pay5
  exact shapeCast_self _ _

/-- The product `xᵀ q` contracts the 4096 rows of the two blocks. -/
abbrev dotT : DotDims S4096x256 S4096x32 S256x32 := dot_S4096x256_S4096x32_S256x32_0_0_1_1_n_n

theorem dotT_lhs0 (j : S256x32.Idx) (k : dotT.contr.Idx) : (dotT.lhsIdx j k 0).val = (k ⟨0, by decide⟩).val :=
  dotT.lhsIdx_val_of_single rfl j k
theorem dotT_lhs1 (j : S256x32.Idx) (k : dotT.contr.Idx) : (dotT.lhsIdx j k 1).val = (j 0).val := by
  unfold DotDims.lhsIdx
  rw [dif_neg (show ¬(1 : Fin S4096x256.rank) ∈ dotT.lhsBatch by decide), dif_pos (show (1 : Fin S4096x256.rank) ∈ dotT.lhsNonContracting by decide)]
  rfl
theorem dotT_rhs0 (j : S256x32.Idx) (k : dotT.contr.Idx) : (dotT.rhsIdx j k 0).val = (k ⟨0, by decide⟩).val :=
  dotT.rhsIdx_val_of_single rfl j k
theorem dotT_rhs1 (j : S256x32.Idx) (k : dotT.contr.Idx) : (dotT.rhsIdx j k 1).val = (j 1).val := by
  unfold DotDims.rhsIdx
  rw [dif_neg (show ¬(1 : Fin S4096x32.rank) ∈ dotT.rhsBatch by decide), dif_pos (show (1 : Fin S4096x32.rank) ∈ dotT.rhsNonContracting by decide)]
  rfl

/-- The cross-product payload: what the block held plus `∑_r x[r, d] · q[r, v]`. -/
theorem pay2_apply (x : FVec Ideal S4096x256 .f32) (q : FVec Ideal S4096x32 .f32) (z : FVec Ideal S1x256x32 .f32)
    (d : Fin 256) (v : Fin 32) :
    k0_pay2 (F := Ideal) x q z (ix3 (0 : Fin 1) d v)
      = z (ix3 (0 : Fin 1) d v) + ∑ r : Fin 4096, x (ix2 r d) * q (ix2 r v) := by
  unfold k0_pay2
  refine (shapeCast_ab_1ab_apply (a := 256) (b := 32) _ shapeCasts_S256x32_S1x256x32 0 d v).trans ?_
  refine congr (congrArg HAdd.hAdd ?_) ?_
  · exact shapeCast_1ab_ab_apply (a := 256) (b := 32) z shapeCasts_S1x256x32_S256x32 d v
  · refine (Ideal.matmul_constant_zero_apply dotT none _ _ (ix2 d v)).trans ?_
    rw [← Equiv.sum_comp (contrEquiv1 dotT 4096 rfl rfl).symm]
    refine Finset.sum_congr rfl fun r _ => ?_
    have hk := contrEquiv1_symm_val dotT 4096 rfl rfl r
    refine congr (congrArg HMul.hMul ?_) ?_
    · refine congrArg x (funext fun a => Fin.ext ?_)
      match a with
      | ⟨0, _⟩ => exact (dotT_lhs0 _ _).trans hk
      | ⟨1, _⟩ => exact dotT_lhs1 _ _
    · refine congrArg q (funext fun a => Fin.ext ?_)
      match a with
      | ⟨0, _⟩ => exact (dotT_rhs0 _ _).trans hk
      | ⟨1, _⟩ => exact dotT_rhs1 _ _

/-! ## A running total that restarts every 32 steps -/

/-- If `S` restarts at `0 + t n` whenever `32 ∣ n` and otherwise adds `t n` to its previous value, then `S n` is the sum of
    `t` over the steps of `n`'s group of 32 up to `n`. -/
theorem chain_sum (N : ℕ) (S t : ℕ → EReal)
    (hA : ∀ n, n < N → n % 32 = 0 → S n = 0 + t n)
    (hB : ∀ n, n < N → ¬n % 32 = 0 → S n = S (n - 1) + t n) :
    ∀ n, n < N → S n = ∑ k ∈ Finset.range (n % 32 + 1), t (n - n % 32 + k) := by
  intro n
  induction n with
  | zero => intro h; rw [hA 0 h rfl]; simp
  | succ n ih =>
    intro h
    by_cases h0 : (n + 1) % 32 = 0
    · rw [hA _ h h0, h0]; simp
    · rw [hB _ h h0, Nat.add_sub_cancel, ih (Nat.lt_of_succ_lt h)]
      have e1 : (n + 1) % 32 = n % 32 + 1 := by omega
      have e2 : n + 1 - (n % 32 + 1) = n - n % 32 := by omega
      rw [e1, e2, Finset.sum_range_succ (fun k => t (n - n % 32 + k)) (n % 32 + 1)]
      refine congrArg (_ + t ·) ?_
      omega

/-! ## The accumulators after each point -/

variable (V : (c : Dev nD) → (b : Ref sig .tc) → Buf (Elt Ideal) ((c : Thread nD τ).loc b))

/-- The assignment block of point `t`: the body's arithmetic on the point's four input blocks. -/
def qblk (c : Dev nD) (t : Fin cfg0.N) : FVec Ideal S4096x32 .f32 :=
  k0_pay6 (F := Ideal) (iblk0 V c 0 t) (iblk0 V c 1 t) (iblk0 V c 2 t) (iblk0 V c 3 t)

/-- The input block of point `t`. -/
def xblk (c : Dev nD) (t : Fin cfg0.N) : FVec Ideal S4096x256 .f32 := iblk0 V c 0 t

/-- The column sums of point `n`'s assignment block (0 past the grid). -/
def colsum (c : Dev nD) (v : Fin 32) (n : ℕ) : EReal :=
  if h : n < cfg0.N then ∑ r : Fin 4096, qblk V c ⟨n, h⟩ (ix2 r v) else 0

/-- Point `n`'s contribution to the cross product (0 past the grid). -/
def cross (c : Dev nD) (d : Fin 256) (v : Fin 32) (n : ℕ) : EReal :=
  if h : n < cfg0.N then ∑ r : Fin 4096, xblk V c ⟨n, h⟩ (ix2 r d) * qblk V c ⟨n, h⟩ (ix2 r v) else 0

/-- What the column-sum block holds after point `n`. -/
def accS (c : Dev nD) (v : Fin 32) (n : ℕ) : EReal :=
  if h : n < cfg0.N then (outsAt0 V c n h).2.1 (ix3 (0 : Fin 1) (0 : Fin 1) v) else 0

/-- What the cross-product block holds after point `n`. -/
def accZ (c : Dev nD) (d : Fin 256) (v : Fin 32) (n : ℕ) : EReal :=
  if h : n < cfg0.N then (outsAt0 V c n h).2.2 (ix3 (0 : Fin 1) d v) else 0

/-- The assignment block written at point `t` (a change of float format is the identity at the ideal values). -/
theorem out4_eq (c : Dev nD) (t : Fin cfg0.N) : (outsAt0 V c t.val t.isLt).1 = k0_pay7 (F := Ideal) (iblk0 V c 0 t) (iblk0 V c 1 t) (iblk0 V c 2 t) (iblk0 V c 3 t) := by
  by_cases h0 : t.val % 32 = 0
  · rw [outsAt0_A V c t h0]
    dsimp only
    exact out_A_4 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) ((hcond0_0 t).mpr h0) (iblk0 V c 0 t) (iblk0 V c 1 t) (iblk0 V c 2 t) (iblk0 V c 3 t)
  · rw [outsAt0_B V c t h0]
    dsimp only
    exact out_B_4 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (fun hh => h0 ((hcond0_0 t).mp hh)) (iblk0 V c 0 t) (iblk0 V c 1 t) (iblk0 V c 2 t) (iblk0 V c 3 t)
      (outsAt0 V c (t.val - 1) (Nat.lt_of_le_of_lt (Nat.sub_le _ _) t.isLt)).2.1 (outsAt0 V c (t.val - 1) (Nat.lt_of_le_of_lt (Nat.sub_le _ _) t.isLt)).2.2

theorem accS_A (c : Dev nD) (v : Fin 32) (n : ℕ) (h : n < cfg0.N) (h0 : n % 32 = 0) : accS V c v n = 0 + colsum V c v n := by
  unfold accS colsum
  rw [dif_pos h, dif_pos h, outsAt0_A V c ⟨n, h⟩ h0]
  dsimp only
  refine (congrFun (out_A_5 (F := Ideal) c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩) (ms0_3 ⟨n, h⟩) (hs0_3 ⟨n, h⟩) (ms0_4 ⟨n, h⟩) (hs0_4 ⟨n, h⟩) (ms0_5 ⟨n, h⟩) (hs0_5 ⟨n, h⟩) (ms0_6 ⟨n, h⟩) (hs0_6 ⟨n, h⟩) ((hcond0_0 ⟨n, h⟩).mpr h0) (iblk0 V c 0 ⟨n, h⟩) (iblk0 V c 1 ⟨n, h⟩) (iblk0 V c 2 ⟨n, h⟩) (iblk0 V c 3 ⟨n, h⟩)) _).trans ?_
  refine (pay1_apply _ _ v).trans ?_
  refine congr (congrArg HAdd.hAdd ?_) rfl
  exact (pay8_apply _ v).trans (pay3_apply v)

theorem accS_B (c : Dev nD) (v : Fin 32) (n : ℕ) (h : n < cfg0.N) (h0 : ¬n % 32 = 0) : accS V c v n = accS V c v (n - 1) + colsum V c v n := by
  unfold accS colsum
  rw [dif_pos h, dif_pos h, dif_pos (Nat.lt_of_le_of_lt (Nat.sub_le _ _) h), outsAt0_B V c ⟨n, h⟩ h0]
  dsimp only
  refine (congrFun (out_B_5 (F := Ideal) c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩) (ms0_3 ⟨n, h⟩) (hs0_3 ⟨n, h⟩) (ms0_4 ⟨n, h⟩) (hs0_4 ⟨n, h⟩) (ms0_5 ⟨n, h⟩) (hs0_5 ⟨n, h⟩) (ms0_6 ⟨n, h⟩) (hs0_6 ⟨n, h⟩) (fun hh => h0 ((hcond0_0 ⟨n, h⟩).mp hh)) (iblk0 V c 0 ⟨n, h⟩) (iblk0 V c 1 ⟨n, h⟩) (iblk0 V c 2 ⟨n, h⟩) (iblk0 V c 3 ⟨n, h⟩) (outsAt0 V c (n - 1) (Nat.lt_of_le_of_lt (Nat.sub_le _ _) h)).2.1 (outsAt0 V c (n - 1) (Nat.lt_of_le_of_lt (Nat.sub_le _ _) h)).2.2) _).trans ?_
  refine (pay1_apply _ _ v).trans ?_
  refine congr (congrArg HAdd.hAdd ?_) rfl
  exact pay8_apply _ v

theorem accZ_A (c : Dev nD) (d : Fin 256) (v : Fin 32) (n : ℕ) (h : n < cfg0.N) (h0 : n % 32 = 0) : accZ V c d v n = 0 + cross V c d v n := by
  unfold accZ cross xblk qblk
  rw [dif_pos h, dif_pos h, outsAt0_A V c ⟨n, h⟩ h0]
  dsimp only
  refine (congrFun (out_A_6 (F := Ideal) c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩) (ms0_3 ⟨n, h⟩) (hs0_3 ⟨n, h⟩) (ms0_4 ⟨n, h⟩) (hs0_4 ⟨n, h⟩) (ms0_5 ⟨n, h⟩) (hs0_5 ⟨n, h⟩) (ms0_6 ⟨n, h⟩) (hs0_6 ⟨n, h⟩) ((hcond0_0 ⟨n, h⟩).mpr h0) (iblk0 V c 0 ⟨n, h⟩) (iblk0 V c 1 ⟨n, h⟩) (iblk0 V c 2 ⟨n, h⟩) (iblk0 V c 3 ⟨n, h⟩)) _).trans ?_
  refine (pay2_apply _ _ _ d v).trans ?_
  rw [pay5_eq, pay4_apply]

theorem accZ_B (c : Dev nD) (d : Fin 256) (v : Fin 32) (n : ℕ) (h : n < cfg0.N) (h0 : ¬n % 32 = 0) : accZ V c d v n = accZ V c d v (n - 1) + cross V c d v n := by
  unfold accZ cross xblk qblk
  rw [dif_pos h, dif_pos h, dif_pos (Nat.lt_of_le_of_lt (Nat.sub_le _ _) h), outsAt0_B V c ⟨n, h⟩ h0]
  dsimp only
  refine (congrFun (out_B_6 (F := Ideal) c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩) (ms0_3 ⟨n, h⟩) (hs0_3 ⟨n, h⟩) (ms0_4 ⟨n, h⟩) (hs0_4 ⟨n, h⟩) (ms0_5 ⟨n, h⟩) (hs0_5 ⟨n, h⟩) (ms0_6 ⟨n, h⟩) (hs0_6 ⟨n, h⟩) (fun hh => h0 ((hcond0_0 ⟨n, h⟩).mp hh)) (iblk0 V c 0 ⟨n, h⟩) (iblk0 V c 1 ⟨n, h⟩) (iblk0 V c 2 ⟨n, h⟩) (iblk0 V c 3 ⟨n, h⟩) (outsAt0 V c (n - 1) (Nat.lt_of_le_of_lt (Nat.sub_le _ _) h)).2.1 (outsAt0 V c (n - 1) (Nat.lt_of_le_of_lt (Nat.sub_le _ _) h)).2.2) _).trans ?_
  refine (pay2_apply _ _ _ d v).trans ?_
  rw [pay5_eq]

/-- After point `n` the column-sum block holds the column sums of the points of `n`'s sweep up to `n`. -/
theorem accS_eq (c : Dev nD) (v : Fin 32) (n : ℕ) (h : n < cfg0.N) :
    accS V c v n = ∑ k ∈ Finset.range (n % 32 + 1), colsum V c v (n - n % 32 + k) :=
  chain_sum cfg0.N (accS V c v) (colsum V c v) (accS_A V c v) (accS_B V c v) n h

/-- After point `n` the cross-product block holds the contributions of the points of `n`'s sweep up to `n`. -/
theorem accZ_eq (c : Dev nD) (d : Fin 256) (v : Fin 32) (n : ℕ) (h : n < cfg0.N) :
    accZ V c d v n = ∑ k ∈ Finset.range (n % 32 + 1), cross V c d v (n - n % 32 + k) :=
  chain_sum cfg0.N (accZ V c d v) (cross V c d v) (accZ_A V c d v) (accZ_B V c d v) n h

end Cert.KernelIdeal.R0

end
-- ==== Proof.Spec.lean ====
/-
  The row-wise mathematics both programs share, over the extended reals.

  A row `xr` of the flattened input (256 features) is scored against 32 centres: the expanded quadratic form
  `∑_d xr_d² · iv2_{d,v} − 2 · ∑_d xr_d · wiv2_{d,v} + bias_v`; the row's minimum score is subtracted, the scores go
  through `exp(−½ ·)`, and the row is normalised by its sum: one row of the assignment matrix `Q`.
-/
import Idealize.ShloMosaic.PureOps.Ideal
import Idealize.ShloMosaic.Lib.ValueIdx

open scoped BigOperators

noncomputable section

namespace Cert.Spec

open Idealize.ShloMosaic

/-- The literal `2.0`. -/
abbrev c2 : EReal := Ideal.ofBits .f32 0x40000000#32
/-- The literal `-0.5`. -/
abbrev cmh : EReal := Ideal.ofBits .f32 0xBF000000#32
/-- The literal `+inf`, from which a row's minimum is folded. -/
abbrev cinf : EReal := Ideal.ofBits .f32 0x7F800000#32

/-- The score of a row against centre `v`: the expanded quadratic form. -/
def qun (xr : Fin 256 → EReal) (iv2 wiv2 : Fin 256 → Fin 32 → EReal) (bias : Fin 32 → EReal) (v : Fin 32) : EReal :=
  (∑ d : Fin 256, xr d * xr d * iv2 d v) - c2 * (∑ d : Fin 256, xr d * wiv2 d v) + bias v

/-- A row's minimum over the 32 centres, folded from `+inf`. -/
def rowMin (f : Fin 32 → EReal) : EReal := (Finset.univ : Finset (Fin 32)).fold min cinf f

/-- `exp(−½ · (score − the row's minimum))`. -/
def qexp (f : Fin 32 → EReal) (v : Fin 32) : EReal := Ideal.exp (cmh * (f v - rowMin f))

/-- The row normalised by its sum. -/
def qnorm (f : Fin 32 → EReal) (v : Fin 32) : EReal := Ideal.div (qexp f v) (∑ w : Fin 32, qexp f w)

/-- One row of the assignment matrix. -/
def qrow (xr : Fin 256 → EReal) (iv2 wiv2 : Fin 256 → Fin 32 → EReal) (bias : Fin 32 → EReal) (v : Fin 32) : EReal :=
  qnorm (qun xr iv2 wiv2 bias) v

end Cert.Spec

end
-- ==== Proof.LibDot.lean ====
/- A general lemma for reading a plain matrix product on the host at an index, at the ideal values: rows by columns,
   the sum over the one contracted coordinate. -/
import Idealize.ShloMosaic.PureOps.Ideal.Laws
import Idealize.ShloMosaic.Lib.ValueIdx

open scoped BigOperators

namespace Cert.LibDot

open Idealize.ShloMosaic Idealize.ShloMosaic.ValueIdx

/-- `dot_general` of `[M, K]` by `[K, N]` (contracting the left operand's axis 1 with the right one's axis 0) at `(r, c)`:
    the sum over `d` of `l[r, d] * w[d, c]`. -/
theorem dotGeneral_plain_apply {M K N : Nat} {φ₁ φ₂ : FTy} (prec : Option ContractPrecision) (sched : HostSchedule)
    (l : FVec Ideal ⟨2, ![M, K]⟩ φ₁) (w : FVec Ideal ⟨2, ![K, N]⟩ φ₂) (r : Fin M) (c : Fin N) :
    FloatOps.dotGeneral (DotDims.plain M K N) prec sched l w (ix2 r c) = ∑ d : Fin K, l (ix2 r d) * w (ix2 d c) := by
  rw [Ideal.dotGeneral_apply]
  have hr : (DotDims.plain M K N).contr.rank = 1 := rfl
  have hs : (DotDims.plain M K N).contr.size ⟨0, by omega⟩ = K := rfl
  rw [← Equiv.sum_comp (contrEquiv1 (DotDims.plain M K N) K hr hs).symm]
  refine Finset.sum_congr rfl fun d _ => ?_
  congr 1
  · refine congrArg l (funext fun a => Fin.ext ?_)
    match a with
    | ⟨0, _⟩ => rfl
    | ⟨1, _⟩ => exact contrEquiv1_symm_val (DotDims.plain M K N) K hr hs d
  · refine congrArg w (funext fun a => Fin.ext ?_)
    match a with
    | ⟨0, _⟩ => exact contrEquiv1_symm_val (DotDims.plain M K N) K hr hs d
    | ⟨1, _⟩ => rfl

end Cert.LibDot
-- ==== Proof.LibMatmulRead.lean ====
/-
  Matrix products read at an index, at the ideal values.

  A two-axis array is a function of its index; `mm A B` is the matrix product written as the explicit sum over the
  contracted coordinate. A `tpu.matmul` of plain dimension numbers (rows by contraction, contraction by columns) into a
  zero accumulator, and the host's `dot_general` of the same dimension numbers, are both `mm` of their operands: no
  rounding, no chunk order, no accumulator is left at the ideal values.
-/
import Idealize.ShloMosaic.PureOps.Ideal.Laws
import Idealize.ShloMosaic.Lib.ValueIdx
import proofs.«117550_j41832981463347_2_alg».proof.Proof.LibDot

open scoped BigOperators

noncomputable section

namespace Cert.GCN

open Idealize.ShloMosaic Idealize.ShloMosaic.ValueIdx

/-- A two-axis array of extended reals. -/
abbrev Arr (n k : Nat) := (⟨2, ![n, k]⟩ : Shape).Idx → EReal

/-- The matrix product as explicit sums over the contracted coordinate. -/
def mm {n k p : Nat} (A : Arr n k) (B : Arr k p) : Arr n p := fun i => ∑ d : Fin k, A (ix2 (i 0) d) * B (ix2 d (i 1))

theorem mm_apply {n k p : Nat} (A : Arr n k) (B : Arr k p) (r : Fin n) (c : Fin p) :
    mm A B (ix2 r c) = ∑ d : Fin k, A (ix2 r d) * B (ix2 d c) := rfl

/-- A plain `tpu.matmul` into the zero accumulator at `(r, c)`: the sum over `d` of `l[r, d] * w[d, c]`. -/
theorem matmul_plain_zero_apply {M K N : Nat} {φ₁ φ₂ : FTy} (prec : Option ContractPrecision)
    (l : FVec Ideal ⟨2, ![M, K]⟩ φ₁) (w : FVec Ideal ⟨2, ![K, N]⟩ φ₂) (r : Fin M) (c : Fin N) :
    FloatOps.matmul (DotDims.plain M K N) prec l w (constant ⟨2, ![M, N]⟩ .f32 0x00000000#32) (ix2 r c) = ∑ d : Fin K, l (ix2 r d) * w (ix2 d c) := by
  rw [Ideal.matmul_constant_zero_apply]
  have hr : (DotDims.plain M K N).contr.rank = 1 := rfl
  have hs : (DotDims.plain M K N).contr.size ⟨0, by omega⟩ = K := rfl
  rw [← Equiv.sum_comp (contrEquiv1 (DotDims.plain M K N) K hr hs).symm]
  refine Finset.sum_congr rfl fun d _ => ?_
  congr 1
  · refine congrArg l (funext fun a => Fin.ext ?_)
    match a with
    | ⟨0, _⟩ => rfl
    | ⟨1, _⟩ => exact contrEquiv1_symm_val (DotDims.plain M K N) K hr hs d
  · refine congrArg w (funext fun a => Fin.ext ?_)
    match a with
    | ⟨0, _⟩ => exact contrEquiv1_symm_val (DotDims.plain M K N) K hr hs d
    | ⟨1, _⟩ => rfl

/-- The host's plain `dot_general` is `mm` of its operands, as whole arrays. -/
theorem hostDot_eq_mm {M K N : Nat} {φ₁ φ₂ : FTy} (prec : Option ContractPrecision) (sched : HostSchedule)
    (l : FVec Ideal ⟨2, ![M, K]⟩ φ₁) (w : FVec Ideal ⟨2, ![K, N]⟩ φ₂) :
    (FloatOps.dotGeneral (DotDims.plain M K N) prec sched l w : Arr M N) = mm l w := by
  funext i
  rw [eq_ix2 i]
  exact Cert.LibDot.dotGeneral_plain_apply prec sched l w (i 0) (i 1)

end Cert.GCN

end
-- ==== Proof.LibKeepdims.lean ====
/-
  General lemmas: the "keepdims" column forms read at an index given by coordinates.

  A reduction over the last axis of an `[a, b]` array leaves one value per row, an `[a]` vector; to combine it with the
  array again it is viewed as a column `[a, 1]` and the column is broadcast along the rows to `[a, b]`.  Read at
  `(i, j)`, the column view is the vector at `i` and the broadcast column is the column at `(i, 0)`: so the two together
  read the vector at the ROW coordinate, whatever the column coordinate.
-/
import Idealize.ShloMosaic.Lib.Pipeline.Value
import Idealize.ShloMosaic.Lib.ValueIdx

namespace Cert.LibKeepdims

open Idealize.ShloMosaic Idealize.ShloMosaic.ValueIdx

variable {α : Type}

/-- An `[a]` vector viewed as a column `[a, 1]` reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast along the rows to `[a, b]` reads, at `(i, j)`, the column at `(i, 0)`. -/
theorem broadcastTo_a1_ab_apply {a b : ℕ} (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

/-- Together: a per-row vector, viewed as a column and broadcast along the rows, reads at `(i, j)` the vector at `i`. -/
theorem keepdims_apply {a b : ℕ} (x : (⟨1, ![a]⟩ : Shape).Idx → α) (h1 : (⟨1, ![a]⟩ : Shape).ShapeCasts ⟨2, ![a, 1]⟩)
    (h2 : (⟨2, ![a, 1]⟩ : Shape).Broadcasts ⟨2, ![a, b]⟩) (i : Fin a) (j : Fin b) :
    broadcastTo ⟨2, ![a, b]⟩ (shapeCast ⟨2, ![a, 1]⟩ x h1) h2 (ix2 i j) = x (ix1 i) :=
  (broadcastTo_a1_ab_apply _ h2 i j).trans (shapeCast_a_a1_apply x h1 i 0)

/-- The row form beside it: a vector `[b]` viewed as one row `[1, b]` and broadcast over `a` rows reads at `(i, j)` the
    vector at the COLUMN coordinate `j` (a bias added to every row). -/
theorem rowdims_apply {a b : ℕ} (x : (⟨1, ![b]⟩ : Shape).Idx → α) (h1 : (⟨1, ![b]⟩ : Shape).ShapeCasts ⟨2, ![1, b]⟩)
    (h2 : (⟨2, ![1, b]⟩ : Shape).Broadcasts ⟨2, ![a, b]⟩) (i : Fin a) (j : Fin b) :
    broadcastTo ⟨2, ![a, b]⟩ (shapeCast ⟨2, ![1, b]⟩ x h1) h2 (ix2 i j) = x (ix1 j) := by
  refine (broadcastTo_apply _ h2 (ix2 i j) (ix2 (0 : Fin 1) j) fun ax => ?_).trans ?_
  · match ax with
    | ⟨0, _⟩ => rfl
    | ⟨1, _⟩ =>
      show j.val = if b = 1 then 0 else j.val
      split
      · have := j.isLt; omega
      · rfl
  · exact shapeCast_apply x h1 _ _ (by
      rw [Shape.rowMajor_val_two, Shape.rowMajor_val_one]
      show j.val = 0 * b + j.val
      rw [Nat.zero_mul, Nat.zero_add])

end Cert.LibKeepdims
-- ==== Proof.PayQ.lean ====
/-
  The body of the first kernel, read at an entry, at the ideal values.

  A block of 4096 rows of the flattened input goes through two matrix products, a per-row minimum, an exponential and a
  per-row normalisation: entry `(r, v)` of the result depends on row `r` of the block only, and is `Spec.qrow` of that row.
-/
import proofs.«117550_j41832981463347_2_alg».proof.Proof.Gen.KernelIdeal.Skeleton
import proofs.«117550_j41832981463347_2_alg».proof.Proof.Spec
import proofs.«117550_j41832981463347_2_alg».proof.Proof.LibMatmulRead
import proofs.«117550_j41832981463347_2_alg».proof.Proof.LibKeepdims
import Idealize.ShloMosaic.Lib.Pipeline.Value
import Idealize.ShloMosaic.Lib.ValueIdx
import Idealize.ShloMosaic.Lib.ValueLayout
import Idealize.ShloMosaic.PureOps.Ideal.Laws

open scoped BigOperators

noncomputable section

namespace Cert.KernelIdeal.PayQ

open Cert.KernelIdeal Cert.KernelIdeal.Gen Idealize.ShloMosaic Idealize.ShloMosaic.ValueIdx Cert.Spec

/-- A plain matrix product of a block by a `[256, 32]` array into the zero accumulator, at `(r, c)`. -/
theorem mm_apply (prec : Option ContractPrecision) (l : FVec Ideal S4096x256 .f32) (w : FVec Ideal S256x32 .f32) (r : Fin 4096) (c : Fin 32) :
    matmul dot_S4096x256_S256x32_S4096x32_1_0_0_1_n_n prec l w (constant S4096x32 .f32 0x00000000#32) (ix2 r c)
      = ∑ d : Fin 256, l (ix2 r d) * w (ix2 d c) :=
  Cert.GCN.matmul_plain_zero_apply (M := 4096) (K := 256) (N := 32) prec l w r c

/-- The per-row sum over the 32 columns, at row `r`. -/
theorem rowsum_apply (src : FVec Ideal S4096x32 .f32) (h : S4096x32.Reduces [1] S4096) (hφ : FKind.Formats .f32)
    (hacc : (0x00000000#32 : BitVec 32) = FKind.add.neutral .f32 hφ) (r : Fin 4096) :
    multiReduction .add [1] S4096 src 0x00000000#32 h hφ hacc (ix1 r) = ∑ w : Fin 32, src (ix2 r w) := by
  refine (Ideal.multiReduction_add_single src 0x00000000#32 h hφ hacc (ix1 r)).trans ?_
  refine Finset.sum_congr rfl fun w _ => congrArg src (funext fun a => Fin.ext ?_)
  rw [h.lift_val]
  match a with
  | ⟨0, _⟩ => rfl
  | ⟨1, _⟩ => rfl

/-- The per-row minimum over the 32 columns, folded from `+inf`, at row `r`. -/
theorem rowmin_apply (src : FVec Ideal S4096x32 .f32) (h : S4096x32.Reduces [1] S4096) (hφ : FKind.Formats .f32)
    (hacc : (0x7F800000#32 : BitVec 32) = FKind.minimumf.neutral .f32 hφ) (r : Fin 4096) :
    multiReduction .minimumf [1] S4096 src 0x7F800000#32 h hφ hacc (ix1 r) = rowMin (fun w => src (ix2 r w)) := by
  refine (multiReduction_minimumf_eq_fold src 0x7F800000#32 h hφ hacc (ix1 r)).trans ?_
  refine (h.fold_filter_drop_single FloatOps.minimumf (FloatOps.ofBits .f32 0x7F800000#32) src (ix1 r)).trans ?_
  unfold rowMin
  refine congrArg (fun f : Fin 32 → EReal => (Finset.univ : Finset (Fin 32)).fold min cinf f) (funext fun w => ?_)
  refine congrArg src (funext fun a => Fin.ext ?_)
  rw [h.lift_val]
  match a with
  | ⟨0, _⟩ => rfl
  | ⟨1, _⟩ => rfl

/-! ## The body's arithmetic in stages -/

/-- The scores of a block: the two matrix products, the doubled cross term subtracted, the bias row added. -/
def scoreOf (x : FVec Ideal S4096x256 .f32) (iv2 wiv2 : FVec Ideal S256x32 .f32) (bias : FVec Ideal S1x32 .f32) : FVec Ideal S4096x32 .f32 :=
  addf (subf (matmul dot_S4096x256_S256x32_S4096x32_1_0_0_1_n_n (some .fp32) (mulf x x) iv2 (constant S4096x32 .f32 0x00000000#32))
      (mulf (broadcast S4096x32 (Scalar.ofBits .f32 0x40000000#32))
        (matmul dot_S4096x256_S256x32_S4096x32_1_0_0_1_n_n (some .fp32) x wiv2 (constant S4096x32 .f32 0x00000000#32))))
    (broadcastTo S4096x32 bias broadcasts_S1x32_S4096x32)

/-- Each row's minimum score. -/
def rminOf (s : FVec Ideal S4096x32 .f32) : FVec Ideal S4096 .f32 :=
  multiReduction .minimumf [1] S4096 s 0x7F800000#32 reduces_S4096x32_S4096 (.inl rfl) rfl

/-- `exp(−½ · (score − the row's minimum))`. -/
def expOf (s : FVec Ideal S4096x32 .f32) : FVec Ideal S4096x32 .f32 :=
  exp (mulf (broadcast S4096x32 (Scalar.ofBits .f32 0xBF000000#32))
    (subf s (broadcastTo S4096x32 (shapeCast S4096x1 (rminOf s) shapeCasts_S4096_S4096x1) broadcasts_S4096x1_S4096x32)))

/-- Each row's sum. -/
def rsumOf (e : FVec Ideal S4096x32 .f32) : FVec Ideal S4096 .f32 :=
  multiReduction .add [1] S4096 e 0x00000000#32 reduces_S4096x32_S4096 (.inl rfl) rfl

/-- The rows normalised by their sums. -/
def normOf (s : FVec Ideal S4096x32 .f32) : FVec Ideal S4096x32 .f32 :=
  divf (expOf s) (broadcastTo S4096x32 (shapeCast S4096x1 (rsumOf (expOf s)) shapeCasts_S4096_S4096x1) broadcasts_S4096x1_S4096x32)

/-- The body's assignment block is these stages composed (a shape cast to the same shape is the identity). -/
theorem pay6_eq (x : FVec Ideal S4096x256 .f32) (iv2 wiv2 : FVec Ideal S256x32 .f32) (bias : FVec Ideal S1x32 .f32) :
    k0_pay6 (F := Ideal) x iv2 wiv2 bias = normOf (scoreOf x iv2 wiv2 bias) := by
  unfold k0_pay6 k0_pay5 normOf expOf rsumOf rminOf scoreOf
  simp only [shapeCast_self]

theorem score_apply (x : FVec Ideal S4096x256 .f32) (iv2 wiv2 : FVec Ideal S256x32 .f32) (bias : FVec Ideal S1x32 .f32)
    (r : Fin 4096) (w : Fin 32) :
    scoreOf x iv2 wiv2 bias (ix2 r w)
      = qun (fun d => x (ix2 r d)) (fun d u => iv2 (ix2 d u)) (fun d u => wiv2 (ix2 d u)) (fun u => bias (ix2 (0 : Fin 1) u)) w := by
  unfold scoreOf qun
  rw [addf_apply, subf_apply, mulf_apply, broadcast_apply, mm_apply, mm_apply, broadcastTo_1b_ab_apply]
  rfl

theorem rmin_apply (s : FVec Ideal S4096x32 .f32) (r : Fin 4096) : rminOf s (ix1 r) = rowMin (fun w => s (ix2 r w)) := by
  unfold rminOf
  exact rowmin_apply s _ _ _ r

theorem rsum_apply (e : FVec Ideal S4096x32 .f32) (r : Fin 4096) : rsumOf e (ix1 r) = ∑ w : Fin 32, e (ix2 r w) := by
  unfold rsumOf
  exact rowsum_apply e _ _ _ r

theorem exp_apply' (s : FVec Ideal S4096x32 .f32) (r : Fin 4096) (v : Fin 32) :
    expOf s (ix2 r v) = qexp (fun w => s (ix2 r w)) v := by
  unfold expOf qexp
  show Ideal.exp (_ * (s (ix2 r v) - _)) = _
  rw [Cert.LibKeepdims.keepdims_apply (a := 4096) (b := 32) (rminOf s) shapeCasts_S4096_S4096x1 broadcasts_S4096x1_S4096x32 r v,
    rmin_apply]
  rfl

theorem norm_apply (s : FVec Ideal S4096x32 .f32) (r : Fin 4096) (v : Fin 32) :
    normOf s (ix2 r v) = qnorm (fun w => s (ix2 r w)) v := by
  unfold normOf qnorm
  rw [divf_apply, Cert.LibKeepdims.keepdims_apply (a := 4096) (b := 32) (rsumOf (expOf s)) shapeCasts_S4096_S4096x1 broadcasts_S4096x1_S4096x32 r v,
    rsum_apply, exp_apply']
  exact congrArg (Ideal.div _) (Finset.sum_congr rfl fun w _ => exp_apply' s r w)

/-- Entry `(r, v)` of the body's assignment block is `qrow` of row `r` of the input block. -/
theorem pay6_apply (x : FVec Ideal S4096x256 .f32) (iv2 wiv2 : FVec Ideal S256x32 .f32) (bias : FVec Ideal S1x32 .f32)
    (r : Fin 4096) (v : Fin 32) :
    k0_pay6 (F := Ideal) x iv2 wiv2 bias (ix2 r v)
      = qrow (fun d => x (ix2 r d)) (fun d u => iv2 (ix2 d u)) (fun d u => wiv2 (ix2 d u)) (fun u => bias (ix2 (0 : Fin 1) u)) v := by
  rw [pay6_eq, norm_apply]
  unfold qrow
  exact congrArg (fun f => qnorm f v) (funext fun w => score_apply x iv2 wiv2 bias r w)

end Cert.KernelIdeal.PayQ

end
-- ==== Proof.R0Final.lean ====
/-
  Region 0 of the idealized kernel (the first launch), read off the generated frame at the extended reals: what its three
  output arrays hold after the run, as functions of the arrays the region finds (the parameter `V`).

  The grid is 2 × 32: 64 points, point `t` working on rows `4096 t … 4096 t + 4095` of the flattened input, the points of
  one half `a` (`t = 32 a + k`) forming one sweep. The input's block at point `t` is those rows, the three parameter arrays
  are read whole at every point (`iblk_x`, `iblk_iv2`, `iblk_wiv2`, `iblk_bias`), so entry `(r, v)` of the point's assignment
  block is `Spec.qrow` of row `4096 t + r` of the input (`pay6_blk`).
  The assignment output is written back at every point, block `t`: the array ends at the assignment matrix (`final4`).
  The column-sum and cross-product outputs are running totals over a sweep, written back by the sweep's last point
  `32 a + 31` to block `a`: after that point they hold the sum over the sweep's 32 points of each point's contribution,
  which is the sum over the half's rows (`acc5_at`, `acc6_at`, `final5`, `final6`).
-/
import proofs.«117550_j41832981463347_2_alg».proof.Proof.R0Acc
import proofs.«117550_j41832981463347_2_alg».proof.Proof.PayQ
import proofs.«117550_j41832981463347_2_alg».proof.Proof.Spec
import Idealize.ShloMosaic.Lib.Pipeline.Value
import Idealize.ShloMosaic.Lib.ValueIdx

open scoped BigOperators

noncomputable section

namespace Cert.KernelIdeal.R0F

open Cert.KernelIdeal Cert.KernelIdeal.Gen
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-! ## The three arrays, entry by entry -/

/-- The flattened input as the region finds it. -/
abbrev Xin (c : Dev nD) : S262144x256.Idx → EReal := V c main_v0

/-- Row `R` of the assignment matrix: `Spec.qrow` of row `R` of the flattened input, against the three parameter arrays
    the region finds. -/
def Qk (c : Dev nD) (R : Fin 262144) (v : Fin 32) : EReal :=
  Cert.Spec.qrow (fun d => Xin V c (ix2 R d))
    (fun d u => (V c main_v3 : S256x32.Idx → EReal) (ix2 d u))
    (fun d u => (V c main_v4 : S256x32.Idx → EReal) (ix2 d u))
    (fun u => (V c main_v8 : S1x32.Idx → EReal) (ix2 (0 : Fin 1) u)) v

/-- Row `r` of row block `t` (64 blocks of 4096 rows). -/
def rowOf (t : Fin 64) (r : Fin 4096) : Fin 262144 := ⟨t.val * 4096 + r.val, by have := t.isLt; have := r.isLt; omega⟩

/-- Row block `k` of half `a` (each half of the rows is 32 consecutive blocks). -/
def ptOf (a : Fin 2) (k : Fin 32) : Fin 64 := ⟨a.val * 32 + k.val, by have := a.isLt; have := k.isLt; omega⟩

/-- The assignment matrix. -/
def G4 (c : Dev nD) : S262144x32.Idx → EReal := fun i => Qk V c (i 0) (i 1)

/-- Per half of the rows, the column sums of the assignment matrix, block by block. -/
def G5 (c : Dev nD) : S2x1x32.Idx → EReal :=
  fun i => ∑ k : Fin 32, ∑ r : Fin 4096, Qk V c (rowOf (ptOf (i 0) k) r) (i 2)

/-- Per half of the rows, the cross product of the input with the assignment matrix, block by block. -/
def G6 (c : Dev nD) : S2x256x32.Idx → EReal :=
  fun i => ∑ k : Fin 32, ∑ r : Fin 4096,
    Xin V c (ix2 (rowOf (ptOf (i 0) k) r) (i 1)) * Qk V c (rowOf (ptOf (i 0) k) r) (i 2)

/-! ## The windows' blocks -/

/-- The printed index maps, decided once over the grid: at point `t` the input's and the assignment output's blocks are
    block `(t, 0)`, the three parameter arrays are read whole, and the two accumulated outputs' blocks are block
    `(t / 32, 0, 0)`. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0
    ∧ win0_5.index t (0 : Fin 3) = t.val / 32 ∧ win0_5.index t (1 : Fin 3) = 0 ∧ win0_5.index t (2 : Fin 3) = 0
    ∧ win0_6.index t (0 : Fin 3) = t.val / 32 ∧ win0_6.index t (1 : Fin 3) = 0 ∧ win0_6.index t (2 : Fin 3) = 0 :=
  (by decide +kernel : ∀ t : Fin grid0.N, _)

/-- Row `r` of the input's block at point `t` is row `4096 t + r` of the array. -/
theorem iblk_x (c : Dev nD) (t : Fin cfg0.N) (r : Fin 4096) (d : Fin 256) (k : S262144x256.Idx)
    (hk0 : (k 0).val = t.val * 4096 + r.val) (hk1 : (k 1).val = d.val) :
    (iblk0 V c 0 t : FVec Ideal S4096x256 .f32) (ix2 r d) = Xin V c k := by
  obtain ⟨e0, e1, -⟩ := idx_facts t
  unfold iblk0
  rw [View.read_apply]
  show V c main_v0 _ = V c main_v0 _
  congr 1
  funext a
  apply Fin.ext
  match a with
  | ⟨0, _⟩ => show win0_0.index t (0 : Fin 2) * 4096 + 1 * r.val = (k 0).val; rw [e0, hk0]; omega
  | ⟨1, _⟩ => show win0_0.index t (1 : Fin 2) * 256 + 1 * d.val = (k 1).val; rw [e1, hk1]; omega

/-- The first parameter array's block at every point is the whole array. -/
theorem iblk_iv2 (c : Dev nD) (t : Fin cfg0.N) (d : Fin 256) (u : Fin 32) :
    (iblk0 V c 1 t : FVec Ideal S256x32 .f32) (ix2 d u) = (V c main_v3 : S256x32.Idx → EReal) (ix2 d u) := by
  obtain ⟨-, -, e0, e1, -⟩ := idx_facts t
  unfold iblk0
  rw [View.read_apply]
  show V c main_v3 _ = V c main_v3 _
  congr 1
  funext a
  apply Fin.ext
  match a with
  | ⟨0, _⟩ => show win0_1.index t (0 : Fin 2) * 256 + 1 * d.val = d.val; rw [e0]; omega
  | ⟨1, _⟩ => show win0_1.index t (1 : Fin 2) * 32 + 1 * u.val = u.val; rw [e1]; omega

/-- The second parameter array's block at every point is the whole array. -/
theorem iblk_wiv2 (c : Dev nD) (t : Fin cfg0.N) (d : Fin 256) (u : Fin 32) :
    (iblk0 V c 2 t : FVec Ideal S256x32 .f32) (ix2 d u) = (V c main_v4 : S256x32.Idx → EReal) (ix2 d u) := by
  obtain ⟨-, -, -, -, e0, e1, -⟩ := idx_facts t
  unfold iblk0
  rw [View.read_apply]
  show V c main_v4 _ = V c main_v4 _
  congr 1
  funext a
  apply Fin.ext
  match a with
  | ⟨0, _⟩ => show win0_2.index t (0 : Fin 2) * 256 + 1 * d.val = d.val; rw [e0]; omega
  | ⟨1, _⟩ => show win0_2.index t (1 : Fin 2) * 32 + 1 * u.val = u.val; rw [e1]; omega

/-- The bias row's block at every point is the whole array. -/
theorem iblk_bias (c : Dev nD) (t : Fin cfg0.N) (u : Fin 32) :
    (iblk0 V c 3 t : FVec Ideal S1x32 .f32) (ix2 (0 : Fin 1) u) = (V c main_v8 : S1x32.Idx → EReal) (ix2 (0 : Fin 1) u) := by
  obtain ⟨-, -, -, -, -, -, e0, e1, -⟩ := idx_facts t
  unfold iblk0
  rw [View.read_apply]
  show V c main_v8 _ = V c main_v8 _
  congr 1
  funext a
  apply Fin.ext
  match a with
  | ⟨0, _⟩ => show win0_3.index t (0 : Fin 2) * 1 + 1 * (0 : Fin 1).val = (0 : Fin 1).val; rw [e0]; omega
  | ⟨1, _⟩ => show win0_3.index t (1 : Fin 2) * 32 + 1 * u.val = u.val; rw [e1]; omega

/-- Entry `(r, v)` of the assignment block of point `t` is entry `(4096 t + r, v)` of the assignment matrix. -/
theorem pay6_blk (c : Dev nD) (t : Fin cfg0.N) (r : Fin 4096) (v : Fin 32) (R : Fin 262144) (hR : R.val = t.val * 4096 + r.val) :
    k0_pay6 (F := Ideal) (iblk0 V c 0 t) (iblk0 V c 1 t) (iblk0 V c 2 t) (iblk0 V c 3 t) (ix2 r v) = Qk V c R v := by
  refine (PayQ.pay6_apply (iblk0 V c 0 t) (iblk0 V c 1 t) (iblk0 V c 2 t) (iblk0 V c 3 t) r v).trans ?_
  have e0 : (fun d : Fin 256 => (iblk0 V c 0 t : FVec Ideal S4096x256 .f32) (ix2 r d))
      = fun d => Xin V c (ix2 R d) := funext fun d => iblk_x V c t r d (ix2 R d) hR rfl
  have e1 : (fun (d : Fin 256) (u : Fin 32) => (iblk0 V c 1 t : FVec Ideal S256x32 .f32) (ix2 d u))
      = fun d u => (V c main_v3 : S256x32.Idx → EReal) (ix2 d u) := funext fun d => funext fun u => iblk_iv2 V c t d u
  have e2 : (fun (d : Fin 256) (u : Fin 32) => (iblk0 V c 2 t : FVec Ideal S256x32 .f32) (ix2 d u))
      = fun d u => (V c main_v4 : S256x32.Idx → EReal) (ix2 d u) := funext fun d => funext fun u => iblk_wiv2 V c t d u
  have e3 : (fun u : Fin 32 => (iblk0 V c 3 t : FVec Ideal S1x32 .f32) (ix2 (0 : Fin 1) u))
      = fun u => (V c main_v8 : S1x32.Idx → EReal) (ix2 (0 : Fin 1) u) := funext fun u => iblk_bias V c t u
  unfold Qk
  rw [e0, e1, e2, e3]

/-! ## Which point's block holds an entry -/

/-- An index of the array is in point `t`'s block iff each coordinate is in the block's range on its axis. -/
theorem mem_blk4 (t : Fin cfg0.N) (i : S262144x32.Idx) :
    i ∈ ((cfg0.win 4).blk t).view.set ↔ ∀ a : Fin 2, win0_4.index t a * S4096x32.size a ≤ (i a).val ∧ (i a).val < win0_4.index t a * S4096x32.size a + S4096x32.size a := by
  show i ∈ ((View.whole main_v9_0).slice (win0_4.rect t)).set ↔ _
  rw [View.set_slice_whole, Rect.mem_set_unit]
  exact Iff.rfl

/-- Every entry of the assignment array is in some point's block: row `R` is in the block of point `R / 4096`. -/
theorem covered4 (i : S262144x32.Idx) : ∃ t : Fin cfg0.N, (cfg0.win 4).flush t = true ∧ i ∈ ((cfg0.win 4).blk t).view.set := by
  have hi0 : (i 0).val < 262144 := idx2_lt0 i
  have hi1 : (i 1).val < 32 := idx2_lt1 i
  have hN : cfg0.N = 64 := N_0
  let t : Fin cfg0.N := ⟨(i 0).val / 4096, by rw [hN]; omega⟩
  obtain ⟨-, -, -, -, -, -, -, -, e0, e1, -⟩ := idx_facts t
  have e0' : win0_4.index t (0 : Fin 2) = (i 0).val / 4096 := e0
  refine ⟨t, flush0_4 t, ?_⟩
  rw [mem_blk4]
  intro a
  match a with
  | ⟨0, _⟩ => show win0_4.index t (0 : Fin 2) * 4096 ≤ (i 0).val ∧ (i 0).val < win0_4.index t (0 : Fin 2) * 4096 + 4096; omega
  | ⟨1, _⟩ => show win0_4.index t (1 : Fin 2) * 32 ≤ (i 1).val ∧ (i 1).val < win0_4.index t (1 : Fin 2) * 32 + 32; omega

/-- An index of the array is in point `t`'s block iff each coordinate is in the block's range on its axis. -/
theorem mem_blk5 (t : Fin cfg0.N) (i : S2x1x32.Idx) :
    i ∈ ((cfg0.win 5).blk t).view.set ↔ ∀ a : Fin 3, win0_5.index t a * S1x1x32.size a ≤ (i a).val ∧ (i a).val < win0_5.index t a * S1x1x32.size a + S1x1x32.size a := by
  show i ∈ ((View.whole main_v9_1).slice (win0_5.rect t)).set ↔ _
  rw [View.set_slice_whole, Rect.mem_set_unit]
  exact Iff.rfl

/-- Every entry of the array is in the block of a point that writes back: half `a` is written by the last point of its
    sweep, point `32 a + 31`. -/
theorem covered5 (i : S2x1x32.Idx) : ∃ t : Fin cfg0.N, (cfg0.win 5).flush t = true ∧ i ∈ ((cfg0.win 5).blk t).view.set := by
  have hi0 : (i 0).val < 2 := (i 0).isLt
  have hi1 : (i 1).val < 1 := (i 1).isLt
  have hi2 : (i 2).val < 32 := (i 2).isLt
  have hN : cfg0.N = 64 := N_0
  let t : Fin cfg0.N := ⟨(i 0).val * 32 + 31, by rw [hN]; omega⟩
  obtain ⟨-, -, -, -, -, -, -, -, -, -, e0, e1, e2, -⟩ := idx_facts t
  have e0' : win0_5.index t (0 : Fin 3) = ((i 0).val * 32 + 31) / 32 := e0
  refine ⟨t, (flush0_5 t).mpr (by show ((i 0).val * 32 + 31) % 32 = 31; omega), ?_⟩
  rw [mem_blk5]
  intro a
  match a with
  | ⟨0, _⟩ => show win0_5.index t (0 : Fin 3) * 1 ≤ (i 0).val ∧ (i 0).val < win0_5.index t (0 : Fin 3) * 1 + 1; omega
  | ⟨1, _⟩ => show win0_5.index t (1 : Fin 3) * 1 ≤ (i 1).val ∧ (i 1).val < win0_5.index t (1 : Fin 3) * 1 + 1; omega
  | ⟨2, _⟩ => show win0_5.index t (2 : Fin 3) * 32 ≤ (i 2).val ∧ (i 2).val < win0_5.index t (2 : Fin 3) * 32 + 32; omega

/-- An index of the array is in point `t`'s block iff each coordinate is in the block's range on its axis. -/
theorem mem_blk6 (t : Fin cfg0.N) (i : S2x256x32.Idx) :
    i ∈ ((cfg0.win 6).blk t).view.set ↔ ∀ a : Fin 3, win0_6.index t a * S1x256x32.size a ≤ (i a).val ∧ (i a).val < win0_6.index t a * S1x256x32.size a + S1x256x32.size a := by
  show i ∈ ((View.whole main_v9_2).slice (win0_6.rect t)).set ↔ _
  rw [View.set_slice_whole, Rect.mem_set_unit]
  exact Iff.rfl

/-- Every entry of the array is in the block of a point that writes back: half `a` is written by the last point of its
    sweep, point `32 a + 31`. -/
theorem covered6 (i : S2x256x32.Idx) : ∃ t : Fin cfg0.N, (cfg0.win 6).flush t = true ∧ i ∈ ((cfg0.win 6).blk t).view.set := by
  have hi0 : (i 0).val < 2 := (i 0).isLt
  have hi1 : (i 1).val < 256 := (i 1).isLt
  have hi2 : (i 2).val < 32 := (i 2).isLt
  have hN : cfg0.N = 64 := N_0
  let t : Fin cfg0.N := ⟨(i 0).val * 32 + 31, by rw [hN]; omega⟩
  obtain ⟨-, -, -, -, -, -, -, -, -, -, -, -, -, e0, e1, e2⟩ := idx_facts t
  have e0' : win0_6.index t (0 : Fin 3) = ((i 0).val * 32 + 31) / 32 := e0
  refine ⟨t, (flush0_6 t).mpr (by show ((i 0).val * 32 + 31) % 32 = 31; omega), ?_⟩
  rw [mem_blk6]
  intro a
  match a with
  | ⟨0, _⟩ => show win0_6.index t (0 : Fin 3) * 1 ≤ (i 0).val ∧ (i 0).val < win0_6.index t (0 : Fin 3) * 1 + 1; omega
  | ⟨1, _⟩ => show win0_6.index t (1 : Fin 3) * 256 ≤ (i 1).val ∧ (i 1).val < win0_6.index t (1 : Fin 3) * 256 + 256; omega
  | ⟨2, _⟩ => show win0_6.index t (2 : Fin 3) * 32 ≤ (i 2).val ∧ (i 2).val < win0_6.index t (2 : Fin 3) * 32 + 32; omega

/-! ## What each point writes back -/

/-- Entry `y` of what point `t` leaves in the assignment output's buffer is the assignment matrix at the entry's place in
    the array: the change of float format is the identity at the extended reals. -/
theorem pay7_at (c : Dev nD) (t : Fin cfg0.N) (y : S4096x32.Idx) (i : S262144x32.Idx)
    (hi0 : (i 0).val = t.val * 4096 + (y 0).val) (hi1 : (i 1).val = (y 1).val) :
    k0_pay7 (F := Ideal) (iblk0 V c 0 t) (iblk0 V c 1 t) (iblk0 V c 2 t) (iblk0 V c 3 t) y = G4 V c i := by
  obtain ⟨r, v, rfl⟩ : ∃ (r : Fin 4096) (v : Fin 32), y = ix2 r v := ⟨y 0, y 1, eq_ix2 y⟩
  unfold k0_pay7
  refine (truncf_apply (ψ := .bf16) (k0_pay6 (F := Ideal) (iblk0 V c 0 t) (iblk0 V c 1 t) (iblk0 V c 2 t) (iblk0 V c 3 t)) bitsLt_bf16_f32 (ix2 r v)).trans ?_
  refine (pay6_blk V c t r v (i 0) hi0).trans ?_
  unfold G4
  have e : (i 1 : Fin 32) = v := Fin.ext hi1
  rw [e]

/-- WHAT POINT `t` WRITES BACK to the assignment array is block `t` of the assignment matrix. -/
theorem flushed4_eq (c : Dev nD) (t : Fin cfg0.N) :
    (dat0 (F := Ideal) V c).flushed 4 t = ((cfg0.win 4).blk t).view.read (Elt Ideal) (G4 V c) := by
  show (cfg0.win 4).cut (grid0.coords t) ((dat0 V c).after 4 t) = _
  rw [after0_4, R0.out4_eq V c t]
  obtain ⟨-, -, -, -, -, -, -, -, e0, e1, -⟩ := idx_facts t
  funext j
  show k0_pay7 (F := Ideal) (iblk0 V c 0 t) (iblk0 V c 1 t) (iblk0 V c 2 t) (iblk0 V c 3 t) ((cfg0.win 4).xinj (grid0.coords t) j)
    = G4 V c (((cfg0.win 4).blk t).view.emb j)
  refine pay7_at V c t ((cfg0.win 4).xinj (grid0.coords t) j) (((cfg0.win 4).blk t).view.emb j) ?_ ?_
  · show win0_4.index t (0 : Fin 2) * 4096 + 1 * (j 0).val = t.val * 4096 + (j 0).val
    rw [e0]; omega
  · show win0_4.index t (1 : Fin 2) * 32 + 1 * (j 1).val = (j 1).val
    rw [e1]; omega

/-- After the last point of a sweep the column-sum block holds, per column, the sum over the sweep's 32 points of the
    column sums of their assignment blocks: the column sums of that half of the assignment matrix. -/
theorem acc5_at (c : Dev nD) (t : Fin cfg0.N) (h31 : t.val % 32 = 31) (y : S1x1x32.Idx) (i : S2x1x32.Idx)
    (hi0 : (i 0).val = t.val / 32) (hi2 : (i 2).val = (y 2).val) :
    (outsAt0 V c t.val t.isLt).2.1 y = G5 V c i := by
  obtain ⟨a, b, v, rfl⟩ : ∃ (a : Fin 1) (b : Fin 1) (v : Fin 32), y = ix3 a b v := ⟨y 0, y 1, y 2, eq_ix3 y⟩
  obtain rfl : a = 0 := Subsingleton.elim _ _
  obtain rfl : b = 0 := Subsingleton.elim _ _
  have hN : cfg0.N = 64 := N_0
  have hacc : (outsAt0 V c t.val t.isLt).2.1 (ix3 (0 : Fin 1) (0 : Fin 1) v) = R0.accS V c v t.val := by
    unfold R0.accS; rw [dif_pos t.isLt]
  rw [hacc, R0.accS_eq V c v t.val t.isLt, show t.val % 32 + 1 = 32 by omega, h31, Finset.sum_range]
  unfold G5
  refine Finset.sum_congr rfl fun k _ => ?_
  have hlt : t.val - 31 + k.val < cfg0.N := by have := t.isLt; have := k.isLt; omega
  unfold R0.colsum
  rw [dif_pos hlt]
  refine Finset.sum_congr rfl fun r _ => ?_
  have e : (i 2 : Fin 32) = v := Fin.ext hi2
  rw [e]
  exact pay6_blk V c ⟨t.val - 31 + k.val, hlt⟩ r v (rowOf (ptOf (i 0) k) r) (by
    show ((i 0).val * 32 + k.val) * 4096 + r.val = (t.val - 31 + k.val) * 4096 + r.val
    omega)

/-- WHAT A POINT THAT WRITES BACK writes to the column-sum array is its half's block of the column sums. -/
theorem flushed5_eq (c : Dev nD) (t : Fin cfg0.N) (hf : (cfg0.win 5).flush t = true) :
    (dat0 (F := Ideal) V c).flushed 5 t = ((cfg0.win 5).blk t).view.read (Elt Ideal) (G5 V c) := by
  have h31 : t.val % 32 = 31 := (flush0_5 t).mp hf
  show (cfg0.win 5).cut (grid0.coords t) ((dat0 V c).after 5 t) = _
  rw [after0_5]
  obtain ⟨-, -, -, -, -, -, -, -, -, -, e0, e1, e2, -⟩ := idx_facts t
  funext j
  show (outsAt0 V c t.val t.isLt).2.1 ((cfg0.win 5).xinj (grid0.coords t) j) = G5 V c (((cfg0.win 5).blk t).view.emb j)
  have hj0 : (j 0).val < 1 := (j 0).isLt
  refine acc5_at V c t h31 ((cfg0.win 5).xinj (grid0.coords t) j) (((cfg0.win 5).blk t).view.emb j) ?_ ?_
  · show win0_5.index t (0 : Fin 3) * 1 + 1 * (j 0).val = t.val / 32
    rw [e0]; omega
  · show win0_5.index t (2 : Fin 3) * 32 + 1 * (j 2).val = (j 2).val
    rw [e2]; omega

/-- After the last point of a sweep the cross-product block holds the sum over the sweep's 32 points of the products of
    their input blocks with their assignment blocks: that half's rows of the input against the assignment matrix. -/
theorem acc6_at (c : Dev nD) (t : Fin cfg0.N) (h31 : t.val % 32 = 31) (y : S1x256x32.Idx) (i : S2x256x32.Idx)
    (hi0 : (i 0).val = t.val / 32) (hi1 : (i 1).val = (y 1).val) (hi2 : (i 2).val = (y 2).val) :
    (outsAt0 V c t.val t.isLt).2.2 y = G6 V c i := by
  obtain ⟨a, d, v, rfl⟩ : ∃ (a : Fin 1) (d : Fin 256) (v : Fin 32), y = ix3 a d v := ⟨y 0, y 1, y 2, eq_ix3 y⟩
  obtain rfl : a = 0 := Subsingleton.elim _ _
  have hN : cfg0.N = 64 := N_0
  have hacc : (outsAt0 V c t.val t.isLt).2.2 (ix3 (0 : Fin 1) d v) = R0.accZ V c d v t.val := by
    unfold R0.accZ; rw [dif_pos t.isLt]
  rw [hacc, R0.accZ_eq V c d v t.val t.isLt, show t.val % 32 + 1 = 32 by omega, h31, Finset.sum_range]
  unfold G6
  refine Finset.sum_congr rfl fun k _ => ?_
  have hlt : t.val - 31 + k.val < cfg0.N := by have := t.isLt; have := k.isLt; omega
  unfold R0.cross
  rw [dif_pos hlt]
  refine Finset.sum_congr rfl fun r _ => ?_
  have e1 : (i 1 : Fin 256) = d := Fin.ext hi1
  have e2 : (i 2 : Fin 32) = v := Fin.ext hi2
  rw [e1, e2]
  have hR : (rowOf (ptOf (i 0) k) r).val = (t.val - 31 + k.val) * 4096 + r.val := by
    show ((i 0).val * 32 + k.val) * 4096 + r.val = (t.val - 31 + k.val) * 4096 + r.val
    omega
  refine congr (congrArg HMul.hMul ?_) ?_
  · exact iblk_x V c ⟨t.val - 31 + k.val, hlt⟩ r d (ix2 (rowOf (ptOf (i 0) k) r) d) hR rfl
  · exact pay6_blk V c ⟨t.val - 31 + k.val, hlt⟩ r v (rowOf (ptOf (i 0) k) r) hR

/-- WHAT A POINT THAT WRITES BACK writes to the cross-product array is its half's block of the cross product. -/
theorem flushed6_eq (c : Dev nD) (t : Fin cfg0.N) (hf : (cfg0.win 6).flush t = true) :
    (dat0 (F := Ideal) V c).flushed 6 t = ((cfg0.win 6).blk t).view.read (Elt Ideal) (G6 V c) := by
  have h31 : t.val % 32 = 31 := (flush0_6 t).mp hf
  show (cfg0.win 6).cut (grid0.coords t) ((dat0 V c).after 6 t) = _
  rw [after0_6]
  obtain ⟨-, -, -, -, -, -, -, -, -, -, -, -, -, e0, e1, e2⟩ := idx_facts t
  funext j
  show (outsAt0 V c t.val t.isLt).2.2 ((cfg0.win 6).xinj (grid0.coords t) j) = G6 V c (((cfg0.win 6).blk t).view.emb j)
  have hj0 : (j 0).val < 1 := (j 0).isLt
  refine acc6_at V c t h31 ((cfg0.win 6).xinj (grid0.coords t) j) (((cfg0.win 6).blk t).view.emb j) ?_ ?_ ?_
  · show win0_6.index t (0 : Fin 3) * 1 + 1 * (j 0).val = t.val / 32
    rw [e0]; omega
  · show win0_6.index t (1 : Fin 3) * 256 + 1 * (j 1).val = (j 1).val
    rw [e1]; omega
  · show win0_6.index t (2 : Fin 3) * 32 + 1 * (j 2).val = (j 2).val
    rw [e2]; omega

/-! ## The three arrays after the run -/

/-- THE ASSIGNMENT ARRAY after the run is the assignment matrix. -/
theorem final4 (c : Dev nD) : (dat0 (F := Ideal) V c).arrAt 4 cfg0.N = G4 V c :=
  (dat0 (F := Ideal) V c).arrAt_eq_of_cover 4 (G4 V c) (fun t _ => flushed4_eq V c t) covered4

/-- THE COLUMN-SUM ARRAY after the run: per half of the rows, the column sums of the assignment matrix. -/
theorem final5 (c : Dev nD) : (dat0 (F := Ideal) V c).arrAt 5 cfg0.N = G5 V c :=
  (dat0 (F := Ideal) V c).arrAt_eq_of_cover 5 (G5 V c) (fun t hf => flushed5_eq V c t hf) covered5

/-- THE CROSS-PRODUCT ARRAY after the run: per half of the rows, the input's rows against the assignment matrix. -/
theorem final6 (c : Dev nD) : (dat0 (F := Ideal) V c).arrAt 6 cfg0.N = G6 V c :=
  (dat0 (F := Ideal) V c).arrAt_eq_of_cover 6 (G6 V c) (fun t hf => flushed6_eq V c t hf) covered6

/-- The three functions at an entry. -/
theorem G4_apply (c : Dev nD) (i : S262144x32.Idx) : G4 V c i = Qk V c (i 0) (i 1) := rfl
theorem G5_apply (c : Dev nD) (i : S2x1x32.Idx) :
    G5 V c i = ∑ k : Fin 32, ∑ r : Fin 4096, Qk V c (rowOf (ptOf (i 0) k) r) (i 2) := rfl
theorem G6_apply (c : Dev nD) (i : S2x256x32.Idx) :
    G6 V c i = ∑ k : Fin 32, ∑ r : Fin 4096,
      Xin V c (ix2 (rowOf (ptOf (i 0) k) r) (i 1)) * Qk V c (rowOf (ptOf (i 0) k) r) (i 2) := rfl

end Cert.KernelIdeal.R0F

end
-- ==== Proof.KValue.lean ====
/-
  The idealized kernel's result as one function of its arguments.

  The result array is the reshape of the second region's output, `Q · Zo`: `Q` the assignment matrix the first region
  leaves (row by row `Spec.qrow` of the flattened input), `Zo` the pooled matrix the host computes from the first
  region's two accumulated outputs.
-/
import proofs.«117550_j41832981463347_2_alg».proof.Proof.KRun
import proofs.«117550_j41832981463347_2_alg».proof.Proof.HostK
import proofs.«117550_j41832981463347_2_alg».proof.Proof.Region1
import proofs.«117550_j41832981463347_2_alg».proof.Proof.R0Final

open scoped BigOperators

noncomputable section

namespace Cert.KernelIdeal.KValue

open Cert.KernelIdeal Cert.KernelIdeal.Gen Cert.KernelIdeal.HostK
open Idealize.ShloMosaic Idealize.ShloMosaic.TcCoe Idealize.SL.Sem Idealize.ShloMosaic.ValueIdx

variable (m : (ℓ : Loc nD τ sig) → Buf (Elt Ideal) ℓ) (ρ : Dev nD → PrngReg)

/-- The assignment matrix the first region leaves. -/
abbrev qArr (c : Dev nD) : S262144x32.Idx → EReal := R0F.G4 (V1 m ρ) c

/-- The column sums, core by core, the first region leaves. -/
abbrev sArr (c : Dev nD) : S2x1x32.Idx → EReal := R0F.G5 (V1 m ρ) c

/-- The cross products, core by core, the first region leaves. -/
abbrev zArr (c : Dev nD) : S2x256x32.Idx → EReal := R0F.G6 (V1 m ρ) c

/-- The pooled matrix the host computes between the regions. -/
def zoArr (c : Dev nD) : S32x256.Idx → EReal :=
  zoOf (F := Ideal) (sOf (sArr m ρ c)) (zunOf (zArr m ρ c)) (m ((c : Thread nD τ).loc main_arg1))
    (ivOf (m ((c : Thread nD τ).loc main_arg2))) (m ((c : Thread nD τ).loc main_arg3))

/-- The result array after the run. -/
theorem result_eq (c : Dev nD) :
    W6 m ρ c (Proc.devRef .tc main_v33)
      = shapeCast S1x256x512x512 (R1.prod (qArr m ρ c) (zoArr m ρ c)) shapeCasts_S262144x256_S1x256x512x512 := by
  rw [W6_v33, R1.final (V4 m ρ) c]
  have hq : (V4 m ρ c main_v9_0 : S262144x32.Idx → EReal) = qArr m ρ c :=
    (W4_v9_0 m ρ c).trans (R0F.final4 (V1 m ρ) c)
  have hz : (V4 m ρ c main_v31 : S32x256.Idx → EReal) = zoArr m ρ c := by
    refine (W4_v31 m ρ c).trans ?_
    unfold zoArr
    rw [R0F.final5 (V1 m ρ) c, R0F.final6 (V1 m ρ) c]
  rw [hq, hz]

end Cert.KernelIdeal.KValue

end
-- ==== Proof.RefQ.lean ====
/-
  The reference, read at an entry, at the ideal values.

  Entry `(R, v)` of the reference's assignment matrix depends on row `R` of the flattened input only and is `Spec.qrow`
  of that row; the column sums, the cross product with the input and the final product with the pooled matrix are plain
  sums over all 262144 rows (or over the 32 centres) of entries of the assignment matrix.
-/
import proofs.«117550_j41832981463347_2_alg».proof.Proof.RefReadP
import proofs.«117550_j41832981463347_2_alg».proof.Proof.Spec
import Idealize.ShloMosaic.Lib.Pipeline.Value
import Idealize.ShloMosaic.Lib.ValueIdx
import Idealize.ShloMosaic.PureOps.Ideal.Laws

open scoped BigOperators

noncomputable section

namespace Cert.ReferenceIdeal.RefQ

open Cert.ReferenceIdeal Cert.ReferenceIdeal.Gen Cert.ReferenceIdeal.Read Idealize.ShloMosaic Idealize.ShloMosaic.ValueIdx Cert.Spec

variable (x0 : (⟨S1x256x512x512, .f32⟩ : BufTy).Contents (Elt Ideal)) (x1 x2 : (⟨S256x32, .f32⟩ : BufTy).Contents (Elt Ideal)) (x3 : (⟨S256x256, .f32⟩ : BufTy).Contents (Elt Ideal))

/-- Row `R` of the flattened input. -/
abbrev xrow (R : Fin 262144) : Fin 256 → EReal := fun d => val_main_v0 (F := Ideal) x0 (ix2 R d)
/-- The squared inverse variances. -/
abbrev iv2f : Fin 256 → Fin 32 → EReal := fun d u => val_main_v3 (F := Ideal) x2 (ix2 d u)
/-- The centres scaled by them. -/
abbrev wiv2f : Fin 256 → Fin 32 → EReal := fun d u => val_main_v6 (F := Ideal) x1 x2 (ix2 d u)
/-- The bias row. -/
abbrev biasf : Fin 32 → EReal := fun u => val_main_v13 (F := Ideal) x1 x2 (ix1 u)

/-- The scores. -/
theorem score_apply (R : Fin 262144) (w : Fin 32) :
    val_main_v16 (F := Ideal) x0 x1 x2 (ix2 R w) = qun (xrow x0 R) (iv2f x2) (wiv2f x1 x2) (biasf x1 x2) w := by
  have e5l : ∀ k, lidx_main_v5 (ix2 R w) k = ix2 R k := fun k => funext fun a => by match a with | ⟨0, _⟩ => rfl | ⟨1, _⟩ => rfl
  have e5r : ∀ k, ridx_main_v5 (ix2 R w) k = ix2 k w := fun k => funext fun a => by match a with | ⟨0, _⟩ => rfl | ⟨1, _⟩ => rfl
  have e7l : ∀ k, lidx_main_v7 (ix2 R w) k = ix2 R k := fun k => funext fun a => by match a with | ⟨0, _⟩ => rfl | ⟨1, _⟩ => rfl
  have e7r : ∀ k, ridx_main_v7 (ix2 R w) k = ix2 k w := fun k => funext fun a => by match a with | ⟨0, _⟩ => rfl | ⟨1, _⟩ => rfl
  have e15 : idx_main_v15 (ix2 R w) = ix2 (0 : Fin 1) w := funext fun a => by match a with | ⟨0, _⟩ => rfl | ⟨1, _⟩ => rfl
  have e14 : idx_main_v14 (ix2 (0 : Fin 1) w) = ix1 w := funext fun a => by match a with | ⟨0, _⟩ => rfl
  rw [val_main_v16_apply, val_main_v10_apply, val_main_v5_apply, val_main_v9_apply, val_main_v8_apply, val_main_v7_apply,
    val_main_v15_apply, e15, val_main_v14_apply, e14]
  simp only [e5l, e5r, e7l, e7r, val_main_v4_apply, val_main_cst_0_apply, Ideal.addf_def, Ideal.subf_def, Ideal.mulf_def,
    Ideal.ofBits_def]
  rfl

/-- The host's minimum over the 32 columns of a `[262144, 32]` array, at row `R`: the fold of `min` from the initial value. -/
theorem hostRowMin (y : FVec Ideal S262144x32 .f32) (init : FVec Ideal S_ .f32) (h' : S262144x32.ReducesTo [1] S262144)
    (hred : S262144x32.Reduces [1] S262144) (hu : 0 < S_.numel) (R : Fin 262144) :
    Host.reduce (FloatOps.minimumf (F := Ideal) (φ := .f32)) y init h' hu (ix1 R)
      = (Finset.univ : Finset (Fin 32)).fold min (init (Shape.Idx.first hu)) (fun w => y (ix2 R w)) := by
  have key := Host.reduce_eq_fold_single (FloatOps.minimumf (F := Ideal) (φ := .f32)) y init h' hred hu (ix1 R)
  refine key.trans ?_
  refine congrArg (fun f : Fin 32 → EReal => (Finset.univ : Finset (Fin 32)).fold min (init (Shape.Idx.first hu)) f) (funext fun w => ?_)
  refine congrArg y (funext fun a => Fin.ext ?_)
  rw [Shape.Reduces.lift_val]
  match a with
  | ⟨0, _⟩ => rfl
  | ⟨1, _⟩ => rfl

/-- Each row's minimum score. -/
theorem min_apply (R : Fin 262144) :
    val_main_v17 (F := Ideal) x0 x1 x2 (ix1 R) = rowMin (fun w => val_main_v16 (F := Ideal) x0 x1 x2 (ix2 R w)) := by
  unfold val_main_v17
  exact hostRowMin _ _ _ (by decide) _ R

/-- The exponentials. -/
theorem exp_apply (R : Fin 262144) (v : Fin 32) :
    val_main_v23 (F := Ideal) x0 x1 x2 (ix2 R v) = qexp (fun w => val_main_v16 (F := Ideal) x0 x1 x2 (ix2 R w)) v := by
  have e19 : idx_main_v19 (ix2 R v) = ix2 R (0 : Fin 1) := funext fun a => by match a with | ⟨0, _⟩ => rfl | ⟨1, _⟩ => rfl
  have e18 : idx_main_v18 (ix2 R (0 : Fin 1)) = ix1 R := funext fun a => by match a with | ⟨0, _⟩ => rfl
  rw [val_main_v23_apply, val_main_v22_apply, val_main_v21_apply, val_main_cst_3_apply, val_main_v20_apply, val_main_v19_apply, e19,
    val_main_v18_apply, e18, min_apply]
  rfl

/-- One entry of the assignment matrix. -/
theorem q_apply (R : Fin 262144) (v : Fin 32) :
    val_main_v27 (F := Ideal) x0 x1 x2 (ix2 R v) = qrow (xrow x0 R) (iv2f x2) (wiv2f x1 x2) (biasf x1 x2) v := by
  have e26 : idx_main_v26 (ix2 R v) = ix2 R (0 : Fin 1) := funext fun a => by match a with | ⟨0, _⟩ => rfl | ⟨1, _⟩ => rfl
  have e25 : idx_main_v25 (ix2 R (0 : Fin 1)) = ix1 R := funext fun a => by match a with | ⟨0, _⟩ => rfl
  have e24 : ∀ k, idx_main_v24 (ix1 R) k = ix2 R k := fun k => funext fun a => by match a with | ⟨0, _⟩ => rfl | ⟨1, _⟩ => rfl
  rw [val_main_v27_apply, val_main_v26_apply, e26, val_main_v25_apply, e25, val_main_v24_apply, exp_apply]
  simp only [e24, exp_apply, val_main_cst_4_apply, Ideal.ofBits_def, Ideal.ofBits_zero_f32, zero_add, Ideal.hostDivf_def]
  unfold qrow qnorm
  have hs : (fun w => val_main_v16 (F := Ideal) x0 x1 x2 (ix2 R w)) = qun (xrow x0 R) (iv2f x2) (wiv2f x1 x2) (biasf x1 x2) :=
    funext fun w => score_apply x0 x1 x2 R w
  rw [hs]

/-- The column sums of the assignment matrix. -/
theorem s_apply (v : Fin 32) :
    val_main_v28 (F := Ideal) x0 x1 x2 (ix1 v) = ∑ R : Fin 262144, val_main_v27 (F := Ideal) x0 x1 x2 (ix2 R v) := by
  have e28 : ∀ k, idx_main_v28 (ix1 v) k = ix2 k v := fun k => funext fun a => by match a with | ⟨0, _⟩ => rfl | ⟨1, _⟩ => rfl
  rw [val_main_v28_apply]
  simp only [e28, val_main_cst_5_apply, Ideal.ofBits_def, Ideal.ofBits_zero_f32, zero_add]

/-- The cross product of the transposed input with the assignment matrix. -/
theorem zun_apply (d : Fin 256) (v : Fin 32) :
    val_main_v30 (F := Ideal) x0 x1 x2 (ix2 d v)
      = ∑ R : Fin 262144, val_main_v0 (F := Ideal) x0 (ix2 R d) * val_main_v27 (F := Ideal) x0 x1 x2 (ix2 R v) := by
  have el : ∀ k, lidx_main_v30 (ix2 d v) k = ix2 d k := fun k => funext fun a => by match a with | ⟨0, _⟩ => rfl | ⟨1, _⟩ => rfl
  have er : ∀ k, ridx_main_v30 (ix2 d v) k = ix2 k v := fun k => funext fun a => by match a with | ⟨0, _⟩ => rfl | ⟨1, _⟩ => rfl
  have e29 : ∀ k : Fin 262144, idx_main_v29 (ix2 d k) = ix2 k d := fun k => funext fun a => by match a with | ⟨0, _⟩ => rfl | ⟨1, _⟩ => rfl
  rw [val_main_v30_apply]
  simp only [el, er, val_main_v29_apply, e29]

/-- The result before the final reshape: the assignment matrix times the pooled matrix. -/
theorem out_apply (R : Fin 262144) (o : Fin 256) :
    val_main_v50 (F := Ideal) x0 x1 x2 x3 (ix2 R o)
      = ∑ v : Fin 32, val_main_v27 (F := Ideal) x0 x1 x2 (ix2 R v) * val_main_v49 (F := Ideal) x0 x1 x2 x3 (ix2 v o) := by
  have el : ∀ k, lidx_main_v50 (ix2 R o) k = ix2 R k := fun k => funext fun a => by match a with | ⟨0, _⟩ => rfl | ⟨1, _⟩ => rfl
  have er : ∀ k, ridx_main_v50 (ix2 R o) k = ix2 k o := fun k => funext fun a => by match a with | ⟨0, _⟩ => rfl | ⟨1, _⟩ => rfl
  rw [val_main_v50_apply]
  simp only [el, er]

end Cert.ReferenceIdeal.RefQ

end
-- ==== Proof.BridgeHost.lean ====
/-
  The host operations the two programs share, matched term for term.

  Outside its pipelined regions the kernel program applies to the launch arguments, and to what the first region
  leaves, the very operations the reference program applies at the same places: the reciprocal variance and its
  square, the scaled weight, the bias sums, the chain from the column sums and the weighted sums to the rectified pooled
  matrix, and the two reshapes at the ends. Each pair is one term written twice, over the two programs' own names for
  the same literal shapes and shape facts, so each equation holds by unfolding. The kernel program alone adds its two
  cores' partial results and keeps the bias as a one-row matrix: those are read at an index, as sums over the two
  cores and as the bias vector's entry.
-/
import proofs.«117550_j41832981463347_2_alg».proof.Proof.HostK
import proofs.«117550_j41832981463347_2_alg».proof.Proof.RefReadP
import Idealize.ShloMosaic.Lib.ValueIdx
import Idealize.ShloMosaic.Lib.ValueLayout
import Idealize.ShloMosaic.PureOps.Ideal.Laws

open scoped BigOperators

noncomputable section

namespace Cert.BridgeHost

open Cert.ReferenceIdeal Cert.ReferenceIdeal.Read Idealize.ShloMosaic Idealize.ShloMosaic.ValueIdx

variable {F : FTy → Type} [FloatOps F]

/-! ## The first stretch -/

/-- The flattened input is the same reshape in both programs. -/
theorem xf_eq (x0 : (⟨S1x256x512x512, .f32⟩ : BufTy).Contents (Elt F)) :
    val_main_v0 (F := F) x0
      = shapeCast Cert.KernelIdeal.S262144x256 x0 Cert.KernelIdeal.Gen.shapeCasts_S1x256x512x512_S262144x256 := rfl

/-- The reciprocal variance. -/
theorem iv_eq (x2 : (⟨S256x32, .f32⟩ : BufTy).Contents (Elt F)) :
    val_main_v2 (F := F) x2 = Cert.KernelIdeal.HostK.ivOf (F := F) x2 := rfl

/-- Its square. -/
theorem iv2_eq (x2 : (⟨S256x32, .f32⟩ : BufTy).Contents (Elt F)) :
    val_main_v3 (F := F) x2 = Cert.KernelIdeal.HostK.iv2Of (F := F) x2 := rfl

/-- The weight scaled by it. -/
theorem wiv2_eq (x1 x2 : (⟨S256x32, .f32⟩ : BufTy).Contents (Elt F)) :
    val_main_v6 (F := F) x1 x2 = Cert.KernelIdeal.HostK.wiv2Of (F := F) x1 x2 := rfl

/-- The kernel program's bias row is the reference's bias vector as a one-row matrix. -/
theorem bias_eq (x1 x2 : (⟨S256x32, .f32⟩ : BufTy).Contents (Elt F)) :
    Cert.KernelIdeal.HostK.biasOf (F := F) x1 x2
      = shapeCast Cert.KernelIdeal.S1x32 (val_main_v13 (F := F) x1 x2) Cert.KernelIdeal.Gen.shapeCasts_S32_S1x32 := rfl

/-- So its entry in column `u` is the vector's entry `u`. -/
theorem bias_apply (x1 x2 : (⟨S256x32, .f32⟩ : BufTy).Contents (Elt F)) (u : Fin 32) :
    Cert.KernelIdeal.HostK.biasOf (F := F) x1 x2 (ix2 (0 : Fin 1) u) = val_main_v13 (F := F) x1 x2 (ix1 u) := by
  rw [bias_eq]
  exact shapeCast_a_1a_apply _ _ (0 : Fin 1) u

/-! ## The second stretch -/

/-- From the column sums and the weighted sums on, the reference's operations up to the rectified pooled matrix are
    the kernel program's second stretch. -/
theorem zo_eq (x0 : (⟨S1x256x512x512, .f32⟩ : BufTy).Contents (Elt F)) (x1 x2 : (⟨S256x32, .f32⟩ : BufTy).Contents (Elt F))
    (x3 : (⟨S256x256, .f32⟩ : BufTy).Contents (Elt F)) :
    val_main_v49 (F := F) x0 x1 x2 x3
      = Cert.KernelIdeal.HostK.zoOf (F := F) (val_main_v28 (F := F) x0 x1 x2) (val_main_v30 (F := F) x0 x1 x2) x1
          (val_main_v2 (F := F) x2) x3 := by
  unfold val_main_v49 val_main_call0_v0 val_main_call0_cst val_main_v48 val_main_v47 val_main_v46 val_main_v45
    val_main_v44 val_main_v43 val_main_v42 val_main_v41 val_main_v40 val_main_cst_6 val_main_v39 val_main_v38
    val_main_v37 val_main_v36 val_main_v35 val_main_v34 val_main_v33 val_main_v32 val_main_v31
  generalize val_main_v28 (F := F) x0 x1 x2 = s
  generalize val_main_v30 (F := F) x0 x1 x2 = zun
  generalize val_main_v2 (F := F) x2 = iv
  rfl

/-! ## The last stretch -/

/-- The result is the same reshape in both programs. -/
theorem out_eq (x0 : (⟨S1x256x512x512, .f32⟩ : BufTy).Contents (Elt F)) (x1 x2 : (⟨S256x32, .f32⟩ : BufTy).Contents (Elt F))
    (x3 : (⟨S256x256, .f32⟩ : BufTy).Contents (Elt F)) :
    val_main_v51 (F := F) x0 x1 x2 x3
      = shapeCast Cert.KernelIdeal.S1x256x512x512 (val_main_v50 (F := F) x0 x1 x2 x3)
          Cert.KernelIdeal.Gen.shapeCasts_S262144x256_S1x256x512x512 := rfl

/-! ## The two cores' partial results added, at the ideal values -/

/-- The added partial rows, at entry `v`: the sum over the two cores. -/
theorem sOf_apply (p : FVec Ideal Cert.KernelIdeal.S2x1x32 .f32) (v : Fin 32) :
    Cert.KernelIdeal.HostK.sOf p (ix1 v) = ∑ c : Fin 2, p (ix3 c (0 : Fin 1) v) := by
  have h : Cert.KernelIdeal.S2x1x32.Reduces [0] Cert.KernelIdeal.S1x32 := by decide
  unfold Cert.KernelIdeal.HostK.sOf
  refine (shapeCast_1a_a_apply _ _ v).trans ?_
  simp only [Host.reduceAdd, Ideal.hostReduceAdd_def]
  rw [Ideal.hostReduceAdd_single Cert.KernelIdeal.Gen.reducesTo_S2x1x32_S1x32_d0 h]
  refine (congrArg₂ (· + ·) Ideal.ofBits_zero_f32
    (Finset.sum_congr rfl fun c _ => congrArg p (funext fun a => Fin.ext ?_))).trans (zero_add _)
  rw [h.lift_val]
  match a with
  | ⟨0, _⟩ => rfl
  | ⟨1, _⟩ => rfl
  | ⟨2, _⟩ => rfl

/-- The added partial arrays, at entry `(d, v)`: the sum over the two cores. -/
theorem zunOf_apply (p : FVec Ideal Cert.KernelIdeal.S2x256x32 .f32) (d : Fin 256) (v : Fin 32) :
    Cert.KernelIdeal.HostK.zunOf p (ix2 d v) = ∑ c : Fin 2, p (ix3 c d v) := by
  have h : Cert.KernelIdeal.S2x256x32.Reduces [0] Cert.KernelIdeal.S256x32 := by decide
  unfold Cert.KernelIdeal.HostK.zunOf
  simp only [Host.reduceAdd, Ideal.hostReduceAdd_def]
  rw [Ideal.hostReduceAdd_single Cert.KernelIdeal.Gen.reducesTo_S2x256x32_S256x32_d0 h]
  refine (congrArg₂ (· + ·) Ideal.ofBits_zero_f32
    (Finset.sum_congr rfl fun c _ => congrArg p (funext fun a => Fin.ext ?_))).trans (zero_add _)
  rw [h.lift_val]
  match a with
  | ⟨0, _⟩ => rfl
  | ⟨1, _⟩ => rfl
  | ⟨2, _⟩ => rfl

end Cert.BridgeHost

end
-- ==== Proof.LibFlagSums.lean ====
/-
  General lemmas over the extended reals, with no array in sight: 0/1 weights, a chain of selections, sums in chunks.

  * A one-bit flag is read as the weight 1 or 0. Multiplying by such a weight distributes over ANY sum of extended
    reals (for the weight 0 both sides are 0, for the weight 1 both sides are the sum itself), so no finiteness is
    needed anywhere.
  * Eight experts are tried in turn; a row keeps the value of the last expert whose flag is set, and 0 when no flag is
    set (`chain`). When at most one flag is set, that is the weighted sum of the experts' values.
  * A sum over `a * b` terms is the sum, over `a` chunks, of the sums over the `b` terms of each chunk.
  * A running total that starts at 0 and adds one term per step is, after step `n`, the sum of the first `n + 1` terms.
-/
import Mathlib.Data.EReal.Operations
import Mathlib.Algebra.BigOperators.Fin
import Mathlib.Logic.Equiv.Fin.Basic

open scoped BigOperators

noncomputable section

namespace Cert.ExpertSum

/-- A one-bit flag as a weight: 1 when the bit is set, else 0. -/
def flag (c : BitVec 1) : EReal := if c = 1#1 then 1 else 0

theorem flag_of_set {c : BitVec 1} (h : c = 1#1) : flag c = 1 := if_pos h
theorem flag_of_unset {c : BitVec 1} (h : ¬c = 1#1) : flag c = 0 := if_neg h

/-- A 0/1 weight distributes over a sum of two extended reals, whatever they are. -/
theorem flag_mul_add (c : BitVec 1) (a b : EReal) : flag c * (a + b) = flag c * a + flag c * b := by
  unfold flag; split_ifs <;> simp

/-- A 0/1 weight distributes over a finite sum of extended reals. -/
theorem flag_mul_sum {ι : Type*} (c : BitVec 1) (S : Finset ι) (f : ι → EReal) :
    flag c * ∑ i ∈ S, f i = ∑ i ∈ S, flag c * f i := by
  unfold flag; split_ifs <;> simp

/-- Trying the experts `0, …, n - 1` in turn: the value of the last one whose flag is set, 0 when none is. -/
def chain (c : ℕ → BitVec 1) (y : ℕ → EReal) : ℕ → EReal
  | 0 => 0
  | n + 1 => if c n = 1#1 then y n else chain c y n

theorem chain_eq_zero (c : ℕ → BitVec 1) (y : ℕ → EReal) (n : ℕ) (h : ∀ k, k < n → ¬c k = 1#1) : chain c y n = 0 := by
  induction n with
  | zero => rfl
  | succ n ih =>
    show (if c n = 1#1 then y n else chain c y n) = 0
    rw [if_neg (h n (Nat.lt_succ_self n))]
    exact ih fun k hk => h k (Nat.lt_succ_of_lt hk)

/-- When at most one of the first `n` flags is set, the weighted sum of the experts' values is the chain's value. -/
theorem sum_flag_eq_chain (c : ℕ → BitVec 1) (y : ℕ → EReal) (n : ℕ)
    (hex : ∀ a b, a < b → b < n → c b = 1#1 → ¬c a = 1#1) :
    ∀ k, k ≤ n → ∑ h ∈ Finset.range k, flag (c h) * y h = chain c y k := by
  intro k
  induction k with
  | zero => intro _; rfl
  | succ k ih =>
    intro hk
    rw [Finset.sum_range_succ]
    show _ = (if c k = 1#1 then y k else chain c y k)
    by_cases hc : c k = 1#1
    · rw [if_pos hc, flag_of_set hc, one_mul,
        Finset.sum_eq_zero (fun a ha => by
          rw [flag_of_unset (hex a k (Finset.mem_range.mp ha) hk hc), zero_mul]), zero_add]
    · rw [if_neg hc, flag_of_unset hc, zero_mul, add_zero]
      exact ih (Nat.le_of_succ_le hk)

/-- A sum over `a * b` terms, chunk by chunk: chunk `c` holds the terms `b * c, …, b * c + b - 1`. -/
theorem sum_chunks {M : Type*} [AddCommMonoid M] (a b : ℕ) (f : Fin (a * b) → M) :
    ∑ c : Fin a, ∑ k : Fin b, f (finProdFinEquiv (c, k)) = ∑ k : Fin (a * b), f k := by
  rw [← Fintype.sum_prod_type (f := fun p : Fin a × Fin b => f (finProdFinEquiv p))]
  exact finProdFinEquiv.sum_comp f

/-- The position of term `k` of chunk `c`. -/
theorem chunk_val (a b : ℕ) (c : Fin a) (k : Fin b) : (finProdFinEquiv (c, k)).val = k.val + b * c.val := rfl

/-- A running total: it starts at `t 0` added to 0 and adds `t (n + 1)` at step `n + 1`. -/
def running (t : ℕ → EReal) : ℕ → EReal
  | 0 => 0 + t 0
  | n + 1 => running t n + t (n + 1)

theorem running_eq_sum (t : ℕ → EReal) (n : ℕ) : running t n = ∑ j ∈ Finset.range (n + 1), t j := by
  induction n with
  | zero => simp [running]
  | succ n ih => rw [Finset.sum_range_succ, ← ih]; rfl

/-- A sum over the first `a * b` naturals as a double sum over chunks. -/
theorem sum_range_chunks {M : Type*} [AddCommMonoid M] (a b : ℕ) (t : ℕ → M) :
    ∑ j ∈ Finset.range (a * b), t j = ∑ c : Fin a, ∑ k : Fin b, t (k.val + b * c.val) := by
  rw [Finset.sum_range, ← sum_chunks a b (fun j => t j.val)]
  rfl

end Cert.ExpertSum

end
-- ==== Proof.SumRows.lean ====
/-
  A sum over the 262144 rows of the flattened input, regrouped the way the first kernel visits them: two cores, 32 row
  blocks per core, 4096 rows per block. Row `r` of block `k` of core `c` is row `(32 c + k) · 4096 + r`. In a commutative
  monoid the regrouped triple sum is the sum over all rows.
-/
import proofs.«117550_j41832981463347_2_alg».proof.Proof.LibFlagSums

open scoped BigOperators

namespace Cert.SumRows

/-- Row `r` of block `k` of core `c`. -/
def row (c : Fin 2) (k : Fin 32) (r : Fin 4096) : Fin 262144 :=
  ⟨(c.val * 32 + k.val) * 4096 + r.val, by have := c.isLt; have := k.isLt; have := r.isLt; omega⟩

theorem row_val (c : Fin 2) (k : Fin 32) (r : Fin 4096) : (row c k r).val = (c.val * 32 + k.val) * 4096 + r.val := rfl

/-- The sum over all rows, core by core, block by block. -/
theorem sum_rows {M : Type*} [AddCommMonoid M] (f : Fin 262144 → M) :
    ∑ c : Fin 2, ∑ k : Fin 32, ∑ r : Fin 4096, f (row c k r) = ∑ R : Fin 262144, f R := by
  have h1 := Cert.ExpertSum.sum_chunks (M := M) 64 4096 (fun R : Fin (64 * 4096) => f ⟨R.val, by have := R.isLt; omega⟩)
  have h2 := Cert.ExpertSum.sum_chunks (M := M) 2 32
    (fun t : Fin (2 * 32) => ∑ r : Fin 4096, f ⟨t.val * 4096 + r.val, by have := t.isLt; have := r.isLt; omega⟩)
  refine Eq.trans ?_ (Eq.trans h2 ?_)
  · refine Finset.sum_congr rfl fun c _ => Finset.sum_congr rfl fun k _ => Finset.sum_congr rfl fun r _ => ?_
    refine congrArg f (Fin.ext ?_)
    show (c.val * 32 + k.val) * 4096 + r.val = (finProdFinEquiv (c, k)).val * 4096 + r.val
    rw [Cert.ExpertSum.chunk_val]
    ring
  · refine Eq.trans ?_ h1
    refine Finset.sum_congr rfl fun t _ => Finset.sum_congr rfl fun r _ => ?_
    refine congrArg f (Fin.ext ?_)
    show t.val * 4096 + r.val = (finProdFinEquiv (t, r)).val
    rw [Cert.ExpertSum.chunk_val]
    ring

end Cert.SumRows
-- ==== Proof.Bridge.lean ====
/-
  The two idealized programs compute one function of the arguments.

  Row by row the kernel's assignment matrix is the reference's (`Spec.qrow` on both sides). The kernel's column sums
  and cross products are accumulated per core over 32 blocks of 4096 rows and then added across the two cores; the
  reference sums over all 262144 rows at once: the same sums, regrouped, in the commutative monoid of the extended
  reals. From there on both programs apply the same host operations, and the last product `Q · Zo` is taken block by
  block on one side and whole on the other.
-/
import proofs.«117550_j41832981463347_2_alg».proof.Proof.KValue
import proofs.«117550_j41832981463347_2_alg».proof.Proof.RefQ
import proofs.«117550_j41832981463347_2_alg».proof.Proof.BridgeHost
import proofs.«117550_j41832981463347_2_alg».proof.Proof.SumRows

open scoped BigOperators

noncomputable section

namespace Cert.Bridge

open Idealize.ShloMosaic Idealize.ShloMosaic.TcCoe Idealize.SL.Sem Idealize.ShloMosaic.ValueIdx
open Cert.KernelIdeal.Gen Cert.KernelIdeal.HostK Cert.KernelIdeal.KValue Cert.ReferenceIdeal.Read Cert.ReferenceIdeal.RefQ Cert.BridgeHost

variable (m : (ℓ : Loc Cert.KernelIdeal.nD Cert.KernelIdeal.τ Cert.KernelIdeal.sig) → Buf (Elt Ideal) ℓ)
  (ρ : Dev Cert.KernelIdeal.nD → PrngReg) (c : Dev Cert.KernelIdeal.nD)

/-- The arguments as the kernel program's launch memory holds them. -/
abbrev a0 := m ((c : Thread Cert.KernelIdeal.nD Cert.KernelIdeal.τ).loc Cert.KernelIdeal.main_arg0)
abbrev a1 := m ((c : Thread Cert.KernelIdeal.nD Cert.KernelIdeal.τ).loc Cert.KernelIdeal.main_arg1)
abbrev a2 := m ((c : Thread Cert.KernelIdeal.nD Cert.KernelIdeal.τ).loc Cert.KernelIdeal.main_arg2)
abbrev a3 := m ((c : Thread Cert.KernelIdeal.nD Cert.KernelIdeal.τ).loc Cert.KernelIdeal.main_arg3)

/-- Entry by entry the kernel's assignment matrix is the reference's. -/
theorem q_eq (R : Fin 262144) (v : Fin 32) :
    Cert.KernelIdeal.R0F.Qk (V1 m ρ) c R v = val_main_v27 (F := Ideal) (a0 m c) (a1 m c) (a2 m c) (ix2 R v) := by
  rw [q_apply]
  unfold Cert.KernelIdeal.R0F.Qk Cert.KernelIdeal.R0F.Xin
  have h0 : (V1 m ρ c Cert.KernelIdeal.main_v0 : Cert.KernelIdeal.S262144x256.Idx → EReal) = val_main_v0 (F := Ideal) (a0 m c) :=
    (W1_v0 m ρ c).trans (xf_eq (a0 m c)).symm
  have h3 : (V1 m ρ c Cert.KernelIdeal.main_v3 : Cert.KernelIdeal.S256x32.Idx → EReal) = val_main_v3 (F := Ideal) (a2 m c) :=
    (W1_v3 m ρ c).trans (iv2_eq (a2 m c)).symm
  have h4 : (V1 m ρ c Cert.KernelIdeal.main_v4 : Cert.KernelIdeal.S256x32.Idx → EReal) = val_main_v6 (F := Ideal) (a1 m c) (a2 m c) :=
    (W1_v4 m ρ c).trans (wiv2_eq (a1 m c) (a2 m c)).symm
  have h8 : ∀ u : Fin 32, (V1 m ρ c Cert.KernelIdeal.main_v8 : Cert.KernelIdeal.S1x32.Idx → EReal) (ix2 (0 : Fin 1) u)
      = val_main_v13 (F := Ideal) (a1 m c) (a2 m c) (ix1 u) := fun u =>
    (congrFun (W1_v8 m ρ c) _).trans (bias_apply (a1 m c) (a2 m c) u)
  rw [h0, h3, h4]
  exact congrArg (fun b : Fin 32 → EReal => Cert.Spec.qrow (xrow (a0 m c) R) (iv2f (a2 m c)) (wiv2f (a1 m c) (a2 m c)) b v) (funext h8)

/-- The kernel's column sums, added across the two cores, are the reference's. -/
theorem s_eq : sOf (F := Ideal) (sArr m ρ c) = val_main_v28 (F := Ideal) (a0 m c) (a1 m c) (a2 m c) := by
  funext j
  obtain ⟨v, rfl⟩ : ∃ v : Fin 32, j = ix1 v := ⟨j 0, eq_ix1 j⟩
  rw [sOf_apply, s_apply]
  refine Eq.trans ?_ (Cert.SumRows.sum_rows fun R => val_main_v27 (F := Ideal) (a0 m c) (a1 m c) (a2 m c) (ix2 R v))
  refine Finset.sum_congr rfl fun cc _ => ?_
  show ∑ k : Fin 32, ∑ r : Fin 4096, Cert.KernelIdeal.R0F.Qk (V1 m ρ) c (Cert.KernelIdeal.R0F.rowOf (Cert.KernelIdeal.R0F.ptOf cc k) r) v = _
  refine Finset.sum_congr rfl fun k _ => Finset.sum_congr rfl fun r _ => ?_
  exact (q_eq m ρ c _ v).trans
    (congrArg (fun R => val_main_v27 (F := Ideal) (a0 m c) (a1 m c) (a2 m c) (ix2 R v)) (Fin.ext rfl))

/-- The kernel's cross products, added across the two cores, are the reference's. -/
theorem zun_eq : zunOf (F := Ideal) (zArr m ρ c) = val_main_v30 (F := Ideal) (a0 m c) (a1 m c) (a2 m c) := by
  funext j
  obtain ⟨d, v, rfl⟩ : ∃ (d : Fin 256) (v : Fin 32), j = ix2 d v := ⟨j 0, j 1, eq_ix2 j⟩
  rw [zunOf_apply, zun_apply]
  refine Eq.trans ?_ (Cert.SumRows.sum_rows fun R =>
    val_main_v0 (F := Ideal) (a0 m c) (ix2 R d) * val_main_v27 (F := Ideal) (a0 m c) (a1 m c) (a2 m c) (ix2 R v))
  refine Finset.sum_congr rfl fun cc _ => ?_
  show ∑ k : Fin 32, ∑ r : Fin 4096,
      Cert.KernelIdeal.R0F.Xin (V1 m ρ) c (ix2 (Cert.KernelIdeal.R0F.rowOf (Cert.KernelIdeal.R0F.ptOf cc k) r) d)
        * Cert.KernelIdeal.R0F.Qk (V1 m ρ) c (Cert.KernelIdeal.R0F.rowOf (Cert.KernelIdeal.R0F.ptOf cc k) r) v = _
  refine Finset.sum_congr rfl fun k _ => Finset.sum_congr rfl fun r _ => ?_
  have h0 : Cert.KernelIdeal.R0F.Xin (V1 m ρ) c = val_main_v0 (F := Ideal) (a0 m c) :=
    (W1_v0 m ρ c).trans (xf_eq (a0 m c)).symm
  have hR : Cert.KernelIdeal.R0F.rowOf (Cert.KernelIdeal.R0F.ptOf cc k) r = Cert.SumRows.row cc k r := Fin.ext rfl
  rw [h0, q_eq m ρ c _ v, hR]

/-- The pooled matrices agree: the same host operations on equal sums. -/
theorem zo_eq' : zoArr m ρ c = val_main_v49 (F := Ideal) (a0 m c) (a1 m c) (a2 m c) (a3 m c) := by
  unfold zoArr
  rw [s_eq, zun_eq, ← iv_eq, ← zo_eq]

/-- The results agree. -/
theorem result_eq :
    W6 m ρ c (Proc.devRef .tc Cert.KernelIdeal.main_v33) = val_main_v51 (F := Ideal) (a0 m c) (a1 m c) (a2 m c) (a3 m c) := by
  rw [Cert.KernelIdeal.KValue.result_eq, out_eq]
  refine congrArg (fun x => shapeCast _ x _) ?_
  funext i
  obtain ⟨R, o, rfl⟩ : ∃ (R : Fin 262144) (o : Fin 256), i = ix2 R o := ⟨i 0, i 1, eq_ix2 i⟩
  rw [out_apply]
  show ∑ v : Fin 32, Cert.KernelIdeal.R0F.Qk (V1 m ρ) c R v * zoArr m ρ c (ix2 v o) = _
  refine Finset.sum_congr rfl fun v _ => ?_
  rw [zo_eq', q_eq m ρ c R v]

end Cert.Bridge

end
-- ==== Proof.lean ====
/-
  The claim: the kernel program, its idealization and the idealized reference each run to the end with their
  arguments unchanged, and the two idealized programs end with equal results over the extended reals.

  The programs cluster the 262144 rows of a flattened [262144, 256] input around 32 Gaussian centres. Each row is
  scored against the centres by an expanded quadratic form, the row's minimum score is subtracted, the scores go through
  exp(−½ ·) and the row is normalised: the assignment matrix Q. Its column sums s and the product Xfᵀ Q feed a small
  chain of host operations that ends in a pooled [32, 256] matrix Zo, and the result is Q · Zo reshaped.

  The reference does all of this on whole arrays. The kernel program computes Q in 64 blocks of 4096 rows on a grid of
  two cores by 32 steps, accumulating per core the column sums and the cross products block by block, adds the two
  cores' partial results on the host, applies the same host chain, and takes Q · Zo in 32 blocks of 8192 rows.
  At the ideal values a change of float format is the identity and a matrix product into a zero accumulator is the
  plain sum of products, so: row by row both assignment matrices are one function of the row (`Spec.qrow`); the
  accumulated sums are the reference's sums over all rows regrouped by core and block, equal in the commutative monoid
  of the extended reals with no finiteness needed; the host chain is the same term on equal operands; and the last
  product agrees entry by entry.
-/
import proofs.«117550_j41832981463347_2_alg».proof.Defs
import proofs.«117550_j41832981463347_2_alg».proof.Proof.Gen.Kernel
import proofs.«117550_j41832981463347_2_alg».proof.Proof.Gen.Kernel.Skeleton
import proofs.«117550_j41832981463347_2_alg».proof.Proof.Gen.Kernel.Launch
import proofs.«117550_j41832981463347_2_alg».proof.Proof.Gen.Kernel.Points
import proofs.«117550_j41832981463347_2_alg».proof.Proof.Gen.Kernel.Frame
import proofs.«117550_j41832981463347_2_alg».proof.Proof.Gen.KernelIdeal
import proofs.«117550_j41832981463347_2_alg».proof.Proof.Gen.KernelIdeal.Skeleton
import proofs.«117550_j41832981463347_2_alg».proof.Proof.Gen.KernelIdeal.Launch
import proofs.«117550_j41832981463347_2_alg».proof.Proof.Gen.KernelIdeal.Points
import proofs.«117550_j41832981463347_2_alg».proof.Proof.Gen.KernelIdeal.Frame
import proofs.«117550_j41832981463347_2_alg».proof.Proof.Gen.ReferenceIdeal
import proofs.«117550_j41832981463347_2_alg».proof.Proof.Gen.Pre_finite_inputs
import proofs.«117550_j41832981463347_2_alg».proof.Proof.RefRunP
import proofs.«117550_j41832981463347_2_alg».proof.Proof.RefReadP
import proofs.«117550_j41832981463347_2_alg».proof.Proof.KRun
import proofs.«117550_j41832981463347_2_alg».proof.Proof.Bridge
import Idealize.ShloMosaic.Adequacy
import Idealize.ShloMosaic.Init

noncomputable section

namespace Cert.Proof

open Idealize.ShloMosaic Idealize.ShloMosaic.TcCoe Idealize.SL.Sem

/-- The kernel program runs to the end with its arguments unchanged. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- So does the idealized reference: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the arguments the two idealized programs end with equal results: the kernel program's
    result array is one function of its arguments, the reference's result is the same function of its own. -/
theorem algebraic : Cert.algebraic_KernelIdeal_ReferenceIdeal := by
  intro m ρ m' ρ' _ hagree
  refine ⟨fun c => Cert.KernelIdeal.Gen.W6 m ρ c (Proc.devRef .tc Cert.KernelIdeal.main_v33),
    Cert.KernelIdeal.KRun.run (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v51_eq, (hagree c).1, (hagree c).2.1, (hagree c).2.2.1, (hagree c).2.2.2]
  exact (Cert.Bridge.result_eq m ρ c).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
